-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x128 : Shape := ⟨3, ![4, 512, 128]⟩
abbrev S_ : Shape := ⟨0, ![]⟩

class Facts : Prop where
  bcast_S_S4x512x128 : S_.BroadcastsInDim S4x512x128 (![] : Fin 0 → Fin S4x512x128.rank)
  reducesTo_S4x512x128_S_d0_1_2 : S4x512x128.ReducesTo [0, 1, 2] S_
  h_S_ : 0 < S_.numel

variable [Facts]

def fn {F : FTy → Type} [FloatOps F] (main_arg0 : FVec F S4x512x128 .f32) (main_arg1 : FVec F S4x512x128 .f32) : IVec S_ 1 :=
  let main_v0 : FVec F S4x512x128 .f32 := Host.absf main_arg0
  let main_cst : FVec F S_ .f32 := constant S_ .f32 0x7F800000#32
  let main_v1 : FVec F S4x512x128 .f32 := broadcastInDim S4x512x128 ![] bcast_S_S4x512x128 main_cst
  let main_v2 : IVec S4x512x128 1 := cmpf .olt main_v0 main_v1
  let main_c : IVec S_ 1 := constantI S_ 1 1#1
  let main_v3 : IVec S_ 1 := (fun x v => Host.reduce IntOp.andi x v reducesTo_S4x512x128_S_d0_1_2 h_S_) main_v2 main_c
  let main_v4 : FVec F S4x512x128 .f32 := Host.absf main_arg1
  let main_cst_0 : FVec F S_ .f32 := constant S_ .f32 0x7F800000#32
  let main_v5 : FVec F S4x512x128 .f32 := broadcastInDim S4x512x128 ![] bcast_S_S4x512x128 main_cst_0
  let main_v6 : IVec S4x512x128 1 := cmpf .olt main_v4 main_v5
  let main_c_1 : IVec S_ 1 := constantI S_ 1 1#1
  let main_v7 : IVec S_ 1 := (fun x v => Host.reduce IntOp.andi x v reducesTo_S4x512x128_S_d0_1_2 h_S_) main_v6 main_c_1
  let main_v8 : IVec S_ 1 := andi main_v3 main_v7
  main_v8
-- ==== Kernel.lean ====
abbrev S4x512x128 : Shape := ⟨3, ![4, 512, 128]⟩
abbrev S1x128x128 : Shape := ⟨3, ![1, 128, 128]⟩
abbrev S128x1 : Shape := ⟨2, ![128, 1]⟩
abbrev S128x128 : Shape := ⟨2, ![128, 128]⟩
abbrev S1x128 : Shape := ⟨2, ![1, 128]⟩
abbrev S128 : Shape := ⟨1, ![128]⟩

abbrev nBuf : Space → Nat
  | .hbm => 3
  | .vmem => 9
  | .smem => 0
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S4x512x128, .f32⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S128x1, .f32⟩
  | .local _ .vmem, ⟨7, _⟩ => ⟨S128x1, .f32⟩
  | .local _ .vmem, ⟨8, _⟩ => ⟨S128x128, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v934 : BitVec 1 := Scalar.cmpi .eq arg2 c3_i32
  let v935 : BitVec 32 := Scalar.extui v934
  let c0_i32_23 : BitVec 32 := 0#32
  let v936 : BitVec 1 := Scalar.cmpi .ne v935 c0_i32_23
  v936

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  transposes_S128x128_p1_0_S128x128 : S128x128.Transposes [1, 0] S128x128
  slices_S128x128_o0_0_S128x1 : S128x128.Slices ![0, 0] S128x1
  slices_S128x128_o0_0_S1x128 : S128x128.Slices ![0, 0] S1x128
  broadcasts_S128x1_S128x128 : S128x1.Broadcasts S128x128
  broadcasts_S1x128_S128x128 : S1x128.Broadcasts S128x128
  slices_S128x128_o0_1_S128x1 : S128x128.Slices ![0, 1] S128x1
  slices_S128x128_o1_0_S1x128 : S128x128.Slices ![1, 0] S1x128
  slices_S128x128_o0_2_S128x1 : S128x128.Slices ![0, 2] S128x1
  slices_S128x128_o2_0_S1x128 : S128x128.Slices ![2, 0] S1x128
  slices_S128x128_o0_3_S128x1 : S128x128.Slices ![0, 3] S128x1
  slices_S128x128_o3_0_S1x128 : S128x128.Slices ![3, 0] S1x128
  slices_S128x128_o0_4_S128x1 : S128x128.Slices ![0, 4] S128x1
  slices_S128x128_o4_0_S1x128 : S128x128.Slices ![4, 0] S1x128
  slices_S128x128_o0_5_S128x1 : S128x128.Slices ![0, 5] S128x1
  slices_S128x128_o5_0_S1x128 : S128x128.Slices ![5, 0] S1x128
  slices_S128x128_o0_6_S128x1 : S128x128.Slices ![0, 6] S128x1
  slices_S128x128_o6_0_S1x128 : S128x128.Slices ![6, 0] S1x128
  slices_S128x128_o0_7_S128x1 : S128x128.Slices ![0, 7] S128x1
  slices_S128x128_o7_0_S1x128 : S128x128.Slices ![7, 0] S1x128
  slices_S128x128_o0_8_S128x1 : S128x128.Slices ![0, 8] S128x1
  slices_S128x128_o8_0_S1x128 : S128x128.Slices ![8, 0] S1x128
  slices_S128x128_o0_9_S128x1 : S128x128.Slices ![0, 9] S128x1
  slices_S128x128_o9_0_S1x128 : S128x128.Slices ![9, 0] S1x128
  slices_S128x128_o0_10_S128x1 : S128x128.Slices ![0, 10] S128x1
  slices_S128x128_o10_0_S1x128 : S128x128.Slices ![10, 0] S1x128
  slices_S128x128_o0_11_S128x1 : S128x128.Slices ![0, 11] S128x1
  slices_S128x128_o11_0_S1x128 : S128x128.Slices ![11, 0] S1x128
  slices_S128x128_o0_12_S128x1 : S128x128.Slices ![0, 12] S128x1
  slices_S128x128_o12_0_S1x128 : S128x128.Slices ![12, 0] S1x128
  slices_S128x128_o0_13_S128x1 : S128x128.Slices ![0, 13] S128x1
  slices_S128x128_o13_0_S1x128 : S128x128.Slices ![13, 0] S1x128
  slices_S128x128_o0_14_S128x1 : S128x128.Slices ![0, 14] S128x1
  slices_S128x128_o14_0_S1x128 : S128x128.Slices ![14, 0] S1x128
  slices_S128x128_o0_15_S128x1 : S128x128.Slices ![0, 15] S128x1
  slices_S128x128_o15_0_S1x128 : S128x128.Slices ![15, 0] S1x128
  slices_S128x128_o0_16_S128x1 : S128x128.Slices ![0, 16] S128x1
  slices_S128x128_o16_0_S1x128 : S128x128.Slices ![16, 0] S1x128
  slices_S128x128_o0_17_S128x1 : S128x128.Slices ![0, 17] S128x1
  slices_S128x128_o17_0_S1x128 : S128x128.Slices ![17, 0] S1x128
  slices_S128x128_o0_18_S128x1 : S128x128.Slices ![0, 18] S128x1
  slices_S128x128_o18_0_S1x128 : S128x128.Slices ![18, 0] S1x128
  slices_S128x128_o0_19_S128x1 : S128x128.Slices ![0, 19] S128x1
  slices_S128x128_o19_0_S1x128 : S128x128.Slices ![19, 0] S1x128
  slices_S128x128_o0_20_S128x1 : S128x128.Slices ![0, 20] S128x1
  slices_S128x128_o20_0_S1x128 : S128x128.Slices ![20, 0] S1x128
  slices_S128x128_o0_21_S128x1 : S128x128.Slices ![0, 21] S128x1
  slices_S128x128_o21_0_S1x128 : S128x128.Slices ![21, 0] S1x128
  slices_S128x128_o0_22_S128x1 : S128x128.Slices ![0, 22] S128x1
  slices_S128x128_o22_0_S1x128 : S128x128.Slices ![22, 0] S1x128
  slices_S128x128_o0_23_S128x1 : S128x128.Slices ![0, 23] S128x1
  slices_S128x128_o23_0_S1x128 : S128x128.Slices ![23, 0] S1x128
  slices_S128x128_o0_24_S128x1 : S128x128.Slices ![0, 24] S128x1
  slices_S128x128_o24_0_S1x128 : S128x128.Slices ![24, 0] S1x128
  slices_S128x128_o0_25_S128x1 : S128x128.Slices ![0, 25] S128x1
  slices_S128x128_o25_0_S1x128 : S128x128.Slices ![25, 0] S1x128
  slices_S128x128_o0_26_S128x1 : S128x128.Slices ![0, 26] S128x1
  slices_S128x128_o26_0_S1x128 : S128x128.Slices ![26, 0] S1x128
  slices_S128x128_o0_27_S128x1 : S128x128.Slices ![0, 27] S128x1
  slices_S128x128_o27_0_S1x128 : S128x128.Slices ![27, 0] S1x128
  slices_S128x128_o0_28_S128x1 : S128x128.Slices ![0, 28] S128x1
  slices_S128x128_o28_0_S1x128 : S128x128.Slices ![28, 0] S1x128
  slices_S128x128_o0_29_S128x1 : S128x128.Slices ![0, 29] S128x1
  slices_S128x128_o29_0_S1x128 : S128x128.Slices ![29, 0] S1x128
  slices_S128x128_o0_30_S128x1 : S128x128.Slices ![0, 30] S128x1
  slices_S128x128_o30_0_S1x128 : S128x128.Slices ![30, 0] S1x128
  slices_S128x128_o0_31_S128x1 : S128x128.Slices ![0, 31] S128x1
  slices_S128x128_o31_0_S1x128 : S128x128.Slices ![31, 0] S1x128
  slices_S128x128_o0_32_S128x1 : S128x128.Slices ![0, 32] S128x1
  slices_S128x128_o32_0_S1x128 : S128x128.Slices ![32, 0] S1x128
  slices_S128x128_o0_33_S128x1 : S128x128.Slices ![0, 33] S128x1
  slices_S128x128_o33_0_S1x128 : S128x128.Slices ![33, 0] S1x128
  slices_S128x128_o0_34_S128x1 : S128x128.Slices ![0, 34] S128x1
  slices_S128x128_o34_0_S1x128 : S128x128.Slices ![34, 0] S1x128
  slices_S128x128_o0_35_S128x1 : S128x128.Slices ![0, 35] S128x1
  slices_S128x128_o35_0_S1x128 : S128x128.Slices ![35, 0] S1x128
  slices_S128x128_o0_36_S128x1 : S128x128.Slices ![0, 36] S128x1
  slices_S128x128_o36_0_S1x128 : S128x128.Slices ![36, 0] S1x128
  slices_S128x128_o0_37_S128x1 : S128x128.Slices ![0, 37] S128x1
  slices_S128x128_o37_0_S1x128 : S128x128.Slices ![37, 0] S1x128
  slices_S128x128_o0_38_S128x1 : S128x128.Slices ![0, 38] S128x1
  slices_S128x128_o38_0_S1x128 : S128x128.Slices ![38, 0] S1x128
  slices_S128x128_o0_39_S128x1 : S128x128.Slices ![0, 39] S128x1
  slices_S128x128_o39_0_S1x128 : S128x128.Slices ![39, 0] S1x128
  slices_S128x128_o0_40_S128x1 : S128x128.Slices ![0, 40] S128x1
  slices_S128x128_o40_0_S1x128 : S128x128.Slices ![40, 0] S1x128
  slices_S128x128_o0_41_S128x1 : S128x128.Slices ![0, 41] S128x1
  slices_S128x128_o41_0_S1x128 : S128x128.Slices ![41, 0] S1x128
  slices_S128x128_o0_42_S128x1 : S128x128.Slices ![0, 42] S128x1
  slices_S128x128_o42_0_S1x128 : S128x128.Slices ![42, 0] S1x128
  slices_S128x128_o0_43_S128x1 : S128x128.Slices ![0, 43] S128x1
  slices_S128x128_o43_0_S1x128 : S128x128.Slices ![43, 0] S1x128
  slices_S128x128_o0_44_S128x1 : S128x128.Slices ![0, 44] S128x1
  slices_S128x128_o44_0_S1x128 : S128x128.Slices ![44, 0] S1x128
  slices_S128x128_o0_45_S128x1 : S128x128.Slices ![0, 45] S128x1
  slices_S128x128_o45_0_S1x128 : S128x128.Slices ![45, 0] S1x128
  slices_S128x128_o0_46_S128x1 : S128x128.Slices ![0, 46] S128x1
  slices_S128x128_o46_0_S1x128 : S128x128.Slices ![46, 0] S1x128
  slices_S128x128_o0_47_S128x1 : S128x128.Slices ![0, 47] S128x1
  slices_S128x128_o47_0_S1x128 : S128x128.Slices ![47, 0] S1x128
  slices_S128x128_o0_48_S128x1 : S128x128.Slices ![0, 48] S128x1
  slices_S128x128_o48_0_S1x128 : S128x128.Slices ![48, 0] S1x128
  slices_S128x128_o0_49_S128x1 : S128x128.Slices ![0, 49] S128x1
  slices_S128x128_o49_0_S1x128 : S128x128.Slices ![49, 0] S1x128
  slices_S128x128_o0_50_S128x1 : S128x128.Slices ![0, 50] S128x1
  slices_S128x128_o50_0_S1x128 : S128x128.Slices ![50, 0] S1x128
  slices_S128x128_o0_51_S128x1 : S128x128.Slices ![0, 51] S128x1
  slices_S128x128_o51_0_S1x128 : S128x128.Slices ![51, 0] S1x128
  slices_S128x128_o0_52_S128x1 : S128x128.Slices ![0, 52] S128x1
  slices_S128x128_o52_0_S1x128 : S128x128.Slices ![52, 0] S1x128
  slices_S128x128_o0_53_S128x1 : S128x128.Slices ![0, 53] S128x1
  slices_S128x128_o53_0_S1x128 : S128x128.Slices ![53, 0] S1x128
  slices_S128x128_o0_54_S128x1 : S128x128.Slices ![0, 54] S128x1
  slices_S128x128_o54_0_S1x128 : S128x128.Slices ![54, 0] S1x128
  slices_S128x128_o0_55_S128x1 : S128x128.Slices ![0, 55] S128x1
  slices_S128x128_o55_0_S1x128 : S128x128.Slices ![55, 0] S1x128
  slices_S128x128_o0_56_S128x1 : S128x128.Slices ![0, 56] S128x1
  slices_S128x128_o56_0_S1x128 : S128x128.Slices ![56, 0] S1x128
  slices_S128x128_o0_57_S128x1 : S128x128.Slices ![0, 57] S128x1
  slices_S128x128_o57_0_S1x128 : S128x128.Slices ![57, 0] S1x128
  slices_S128x128_o0_58_S128x1 : S128x128.Slices ![0, 58] S128x1
  slices_S128x128_o58_0_S1x128 : S128x128.Slices ![58, 0] S1x128
  slices_S128x128_o0_59_S128x1 : S128x128.Slices ![0, 59] S128x1
  slices_S128x128_o59_0_S1x128 : S128x128.Slices ![59, 0] S1x128
  slices_S128x128_o0_60_S128x1 : S128x128.Slices ![0, 60] S128x1
  slices_S128x128_o60_0_S1x128 : S128x128.Slices ![60, 0] S1x128
  slices_S128x128_o0_61_S128x1 : S128x128.Slices ![0, 61] S128x1
  slices_S128x128_o61_0_S1x128 : S128x128.Slices ![61, 0] S1x128
  slices_S128x128_o0_62_S128x1 : S128x128.Slices ![0, 62] S128x1
  slices_S128x128_o62_0_S1x128 : S128x128.Slices ![62, 0] S1x128
  slices_S128x128_o0_63_S128x1 : S128x128.Slices ![0, 63] S128x1
  slices_S128x128_o63_0_S1x128 : S128x128.Slices ![63, 0] S1x128
  slices_S128x128_o0_64_S128x1 : S128x128.Slices ![0, 64] S128x1
  slices_S128x128_o64_0_S1x128 : S128x128.Slices ![64, 0] S1x128
  slices_S128x128_o0_65_S128x1 : S128x128.Slices ![0, 65] S128x1
  slices_S128x128_o65_0_S1x128 : S128x128.Slices ![65, 0] S1x128
  slices_S128x128_o0_66_S128x1 : S128x128.Slices ![0, 66] S128x1
  slices_S128x128_o66_0_S1x128 : S128x128.Slices ![66, 0] S1x128
  slices_S128x128_o0_67_S128x1 : S128x128.Slices ![0, 67] S128x1
  slices_S128x128_o67_0_S1x128 : S128x128.Slices ![67, 0] S1x128
  slices_S128x128_o0_68_S128x1 : S128x128.Slices ![0, 68] S128x1
  slices_S128x128_o68_0_S1x128 : S128x128.Slices ![68, 0] S1x128
  slices_S128x128_o0_69_S128x1 : S128x128.Slices ![0, 69] S128x1
  slices_S128x128_o69_0_S1x128 : S128x128.Slices ![69, 0] S1x128
  slices_S128x128_o0_70_S128x1 : S128x128.Slices ![0, 70] S128x1
  slices_S128x128_o70_0_S1x128 : S128x128.Slices ![70, 0] S1x128
  slices_S128x128_o0_71_S128x1 : S128x128.Slices ![0, 71] S128x1
  slices_S128x128_o71_0_S1x128 : S128x128.Slices ![71, 0] S1x128
  slices_S128x128_o0_72_S128x1 : S128x128.Slices ![0, 72] S128x1
  slices_S128x128_o72_0_S1x128 : S128x128.Slices ![72, 0] S1x128
  slices_S128x128_o0_73_S128x1 : S128x128.Slices ![0, 73] S128x1
  slices_S128x128_o73_0_S1x128 : S128x128.Slices ![73, 0] S1x128
  slices_S128x128_o0_74_S128x1 : S128x128.Slices ![0, 74] S128x1
  slices_S128x128_o74_0_S1x128 : S128x128.Slices ![74, 0] S1x128
  slices_S128x128_o0_75_S128x1 : S128x128.Slices ![0, 75] S128x1
  slices_S128x128_o75_0_S1x128 : S128x128.Slices ![75, 0] S1x128
  slices_S128x128_o0_76_S128x1 : S128x128.Slices ![0, 76] S128x1
  slices_S128x128_o76_0_S1x128 : S128x128.Slices ![76, 0] S1x128
  slices_S128x128_o0_77_S128x1 : S128x128.Slices ![0, 77] S128x1
  slices_S128x128_o77_0_S1x128 : S128x128.Slices ![77, 0] S1x128
  slices_S128x128_o0_78_S128x1 : S128x128.Slices ![0, 78] S128x1
  slices_S128x128_o78_0_S1x128 : S128x128.Slices ![78, 0] S1x128
  slices_S128x128_o0_79_S128x1 : S128x128.Slices ![0, 79] S128x1
  slices_S128x128_o79_0_S1x128 : S128x128.Slices ![79, 0] S1x128
  slices_S128x128_o0_80_S128x1 : S128x128.Slices ![0, 80] S128x1
  slices_S128x128_o80_0_S1x128 : S128x128.Slices ![80, 0] S1x128
  slices_S128x128_o0_81_S128x1 : S128x128.Slices ![0, 81] S128x1
  slices_S128x128_o81_0_S1x128 : S128x128.Slices ![81, 0] S1x128
  slices_S128x128_o0_82_S128x1 : S128x128.Slices ![0, 82] S128x1
  slices_S128x128_o82_0_S1x128 : S128x128.Slices ![82, 0] S1x128
  slices_S128x128_o0_83_S128x1 : S128x128.Slices ![0, 83] S128x1
  slices_S128x128_o83_0_S1x128 : S128x128.Slices ![83, 0] S1x128
  slices_S128x128_o0_84_S128x1 : S128x128.Slices ![0, 84] S128x1
  slices_S128x128_o84_0_S1x128 : S128x128.Slices ![84, 0] S1x128
  slices_S128x128_o0_85_S128x1 : S128x128.Slices ![0, 85] S128x1
  slices_S128x128_o85_0_S1x128 : S128x128.Slices ![85, 0] S1x128
  slices_S128x128_o0_86_S128x1 : S128x128.Slices ![0, 86] S128x1
  slices_S128x128_o86_0_S1x128 : S128x128.Slices ![86, 0] S1x128
  slices_S128x128_o0_87_S128x1 : S128x128.Slices ![0, 87] S128x1
  slices_S128x128_o87_0_S1x128 : S128x128.Slices ![87, 0] S1x128
  slices_S128x128_o0_88_S128x1 : S128x128.Slices ![0, 88] S128x1
  slices_S128x128_o88_0_S1x128 : S128x128.Slices ![88, 0] S1x128
  slices_S128x128_o0_89_S128x1 : S128x128.Slices ![0, 89] S128x1
  slices_S128x128_o89_0_S1x128 : S128x128.Slices ![89, 0] S1x128
  slices_S128x128_o0_90_S128x1 : S128x128.Slices ![0, 90] S128x1
  slices_S128x128_o90_0_S1x128 : S128x128.Slices ![90, 0] S1x128
  slices_S128x128_o0_91_S128x1 : S128x128.Slices ![0, 91] S128x1
  slices_S128x128_o91_0_S1x128 : S128x128.Slices ![91, 0] S1x128
  slices_S128x128_o0_92_S128x1 : S128x128.Slices ![0, 92] S128x1
  slices_S128x128_o92_0_S1x128 : S128x128.Slices ![92, 0] S1x128
  slices_S128x128_o0_93_S128x1 : S128x128.Slices ![0, 93] S128x1
  slices_S128x128_o93_0_S1x128 : S128x128.Slices ![93, 0] S1x128
  slices_S128x128_o0_94_S128x1 : S128x128.Slices ![0, 94] S128x1
  slices_S128x128_o94_0_S1x128 : S128x128.Slices ![94, 0] S1x128
  slices_S128x128_o0_95_S128x1 : S128x128.Slices ![0, 95] S128x1
  slices_S128x128_o95_0_S1x128 : S128x128.Slices ![95, 0] S1x128
  slices_S128x128_o0_96_S128x1 : S128x128.Slices ![0, 96] S128x1
  slices_S128x128_o96_0_S1x128 : S128x128.Slices ![96, 0] S1x128
  slices_S128x128_o0_97_S128x1 : S128x128.Slices ![0, 97] S128x1
  slices_S128x128_o97_0_S1x128 : S128x128.Slices ![97, 0] S1x128
  slices_S128x128_o0_98_S128x1 : S128x128.Slices ![0, 98] S128x1
  slices_S128x128_o98_0_S1x128 : S128x128.Slices ![98, 0] S1x128
  slices_S128x128_o0_99_S128x1 : S128x128.Slices ![0, 99] S128x1
  slices_S128x128_o99_0_S1x128 : S128x128.Slices ![99, 0] S1x128
  slices_S128x128_o0_100_S128x1 : S128x128.Slices ![0, 100] S128x1
  slices_S128x128_o100_0_S1x128 : S128x128.Slices ![100, 0] S1x128
  slices_S128x128_o0_101_S128x1 : S128x128.Slices ![0, 101] S128x1
  slices_S128x128_o101_0_S1x128 : S128x128.Slices ![101, 0] S1x128
  slices_S128x128_o0_102_S128x1 : S128x128.Slices ![0, 102] S128x1
  slices_S128x128_o102_0_S1x128 : S128x128.Slices ![102, 0] S1x128
  slices_S128x128_o0_103_S128x1 : S128x128.Slices ![0, 103] S128x1
  slices_S128x128_o103_0_S1x128 : S128x128.Slices ![103, 0] S1x128
  slices_S128x128_o0_104_S128x1 : S128x128.Slices ![0, 104] S128x1
  slices_S128x128_o104_0_S1x128 : S128x128.Slices ![104, 0] S1x128
  slices_S128x128_o0_105_S128x1 : S128x128.Slices ![0, 105] S128x1
  slices_S128x128_o105_0_S1x128 : S128x128.Slices ![105, 0] S1x128
  slices_S128x128_o0_106_S128x1 : S128x128.Slices ![0, 106] S128x1
  slices_S128x128_o106_0_S1x128 : S128x128.Slices ![106, 0] S1x128
  slices_S128x128_o0_107_S128x1 : S128x128.Slices ![0, 107] S128x1
  slices_S128x128_o107_0_S1x128 : S128x128.Slices ![107, 0] S1x128
  slices_S128x128_o0_108_S128x1 : S128x128.Slices ![0, 108] S128x1
  slices_S128x128_o108_0_S1x128 : S128x128.Slices ![108, 0] S1x128
  slices_S128x128_o0_109_S128x1 : S128x128.Slices ![0, 109] S128x1
  slices_S128x128_o109_0_S1x128 : S128x128.Slices ![109, 0] S1x128
  slices_S128x128_o0_110_S128x1 : S128x128.Slices ![0, 110] S128x1
  slices_S128x128_o110_0_S1x128 : S128x128.Slices ![110, 0] S1x128
  slices_S128x128_o0_111_S128x1 : S128x128.Slices ![0, 111] S128x1
  slices_S128x128_o111_0_S1x128 : S128x128.Slices ![111, 0] S1x128
  slices_S128x128_o0_112_S128x1 : S128x128.Slices ![0, 112] S128x1
  slices_S128x128_o112_0_S1x128 : S128x128.Slices ![112, 0] S1x128
  slices_S128x128_o0_113_S128x1 : S128x128.Slices ![0, 113] S128x1
  slices_S128x128_o113_0_S1x128 : S128x128.Slices ![113, 0] S1x128
  slices_S128x128_o0_114_S128x1 : S128x128.Slices ![0, 114] S128x1
  slices_S128x128_o114_0_S1x128 : S128x128.Slices ![114, 0] S1x128
  slices_S128x128_o0_115_S128x1 : S128x128.Slices ![0, 115] S128x1
  slices_S128x128_o115_0_S1x128 : S128x128.Slices ![115, 0] S1x128
  slices_S128x128_o0_116_S128x1 : S128x128.Slices ![0, 116] S128x1
  slices_S128x128_o116_0_S1x128 : S128x128.Slices ![116, 0] S1x128
  slices_S128x128_o0_117_S128x1 : S128x128.Slices ![0, 117] S128x1
  slices_S128x128_o117_0_S1x128 : S128x128.Slices ![117, 0] S1x128
  slices_S128x128_o0_118_S128x1 : S128x128.Slices ![0, 118] S128x1
  slices_S128x128_o118_0_S1x128 : S128x128.Slices ![118, 0] S1x128
  slices_S128x128_o0_119_S128x1 : S128x128.Slices ![0, 119] S128x1
  slices_S128x128_o119_0_S1x128 : S128x128.Slices ![119, 0] S1x128
  slices_S128x128_o0_120_S128x1 : S128x128.Slices ![0, 120] S128x1
  slices_S128x128_o120_0_S1x128 : S128x128.Slices ![120, 0] S1x128
  slices_S128x128_o0_121_S128x1 : S128x128.Slices ![0, 121] S128x1
  slices_S128x128_o121_0_S1x128 : S128x128.Slices ![121, 0] S1x128
  slices_S128x128_o0_122_S128x1 : S128x128.Slices ![0, 122] S128x1
  slices_S128x128_o122_0_S1x128 : S128x128.Slices ![122, 0] S1x128
  slices_S128x128_o0_123_S128x1 : S128x128.Slices ![0, 123] S128x1
  slices_S128x128_o123_0_S1x128 : S128x128.Slices ![123, 0] S1x128
  slices_S128x128_o0_124_S128x1 : S128x128.Slices ![0, 124] S128x1
  slices_S128x128_o124_0_S1x128 : S128x128.Slices ![124, 0] S1x128
  slices_S128x128_o0_125_S128x1 : S128x128.Slices ![0, 125] S128x1
  slices_S128x128_o125_0_S1x128 : S128x128.Slices ![125, 0] S1x128
  slices_S128x128_o0_126_S128x1 : S128x128.Slices ![0, 126] S128x1
  slices_S128x128_o126_0_S1x128 : S128x128.Slices ![126, 0] S1x128
  slices_S128x128_o0_127_S128x1 : S128x128.Slices ![0, 127] S128x1
  slices_S128x128_o127_0_S1x128 : S128x128.Slices ![127, 0] S1x128
  reduces_S128x128_S128 : S128x128.Reduces [1] S128
  shapeCasts_S128_S128x1 : S128.ShapeCasts S128x1
  shapeCasts_S128x128_S1x128x128 : S128x128.ShapeCasts S1x128x128
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S4x512x128.size a
  hwx0_0 : ∀ i : grid0.Coords, EltTy.bits .f32 = 32 ∨ (Rect.block (s := S4x512x128) S1x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S4x512x128.size a
  hwx0_1 : ∀ i : grid0.Coords, EltTy.bits .f32 = 32 ∨ (Rect.block (s := S4x512x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S4x512x128.size a
  hwx0_2 : ∀ i : grid0.Coords, EltTy.bits .f32 = 32 ∨ (Rect.block (s := S4x512x128) S1x128x128.size (cc0_transform_2 i) (hinb0_2 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_arg0) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x512x128 : Shape := ⟨3, ![4, 512, 128]⟩
abbrev S4x512x1x128 : Shape := ⟨4, ![4, 512, 1, 128]⟩
abbrev S4x1x512x128 : Shape := ⟨4, ![4, 1, 512, 128]⟩
abbrev S4x512x512x128 : Shape := ⟨4, ![4, 512, 512, 128]⟩
abbrev S_ : Shape := ⟨0, ![]⟩
abbrev S4x512x512 : Shape := ⟨3, ![4, 512, 512]⟩
abbrev S4x512 : Shape := ⟨2, ![4, 512]⟩
abbrev S4x512x1 : Shape := ⟨3, ![4, 512, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S4x512x1x128, .f32⟩
  | .hbm, ⟨3, _⟩ => ⟨S4x1x512x128, .f32⟩
  | .hbm, ⟨4, _⟩ => ⟨S4x512x512x128, .f32⟩
  | .hbm, ⟨5, _⟩ => ⟨S4x512x512x128, .f32⟩
  | .hbm, ⟨6, _⟩ => ⟨S4x512x512x128, .f32⟩
  | .hbm, ⟨7, _⟩ => ⟨S4x512x512x128, .f32⟩
  | .hbm, ⟨8, _⟩ => ⟨S_, .f32⟩
  | .hbm, ⟨9, _⟩ => ⟨S4x512x512, .f32⟩
  | .hbm, ⟨10, _⟩ => ⟨S_, .f32⟩
  | .hbm, ⟨11, _⟩ => ⟨S4x512, .f32⟩
  | .hbm, ⟨12, _⟩ => ⟨S_, .f32⟩
  | .hbm, ⟨13, _⟩ => ⟨S4x512, .f32⟩
  | .hbm, ⟨14, _⟩ => ⟨S4x512, .f32⟩
  | .hbm, ⟨15, _⟩ => ⟨S4x512x1, .f32⟩
  | .hbm, ⟨16, _⟩ => ⟨S4x512x512, .f32⟩
  | .hbm, ⟨17, _⟩ => ⟨S4x512x512, .f32⟩
  | .hbm, ⟨18, _⟩ => ⟨S4x512x512, .f32⟩
  | .hbm, ⟨19, _⟩ => ⟨S_, .f32⟩
  | .hbm, ⟨20, _⟩ => ⟨S4x512, .f32⟩
  | .hbm, ⟨21, _⟩ => ⟨S4x512x1, .f32⟩
  | .hbm, ⟨22, _⟩ => ⟨S4x512x512, .f32⟩
  | .hbm, ⟨23, _⟩ => ⟨S4x512x512, .f32⟩
  | .hbm, ⟨24, _⟩ => ⟨S4x512x128, .f32⟩
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  bcast_S4x512x128_S4x512x1x128_0_1_3 : S4x512x128.BroadcastsInDim S4x512x1x128 (![0, 1, 3] : Fin 3 → Fin S4x512x1x128.rank)
  bcast_S4x512x128_S4x1x512x128_0_2_3 : S4x512x128.BroadcastsInDim S4x1x512x128 (![0, 2, 3] : Fin 3 → Fin S4x1x512x128.rank)
  bcast_S4x512x1x128_S4x512x512x128_0_1_2_3 : S4x512x1x128.BroadcastsInDim S4x512x512x128 (![0, 1, 2, 3] : Fin 4 → Fin S4x512x512x128.rank)
  bcast_S4x1x512x128_S4x512x512x128_0_1_2_3 : S4x1x512x128.BroadcastsInDim S4x512x512x128 (![0, 1, 2, 3] : Fin 4 → Fin S4x512x512x128.rank)
  reducesTo_S4x512x512x128_S4x512x512_d3 : S4x512x512x128.ReducesTo [3] S4x512x512
  h_S_ : 0 < S_.numel
  reducesTo_S4x512x512_S4x512_d2 : S4x512x512.ReducesTo [2] S4x512
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  bcast_S4x512x1_S4x512x512_0_1_2 : S4x512x1.BroadcastsInDim S4x512x512 (![0, 1, 2] : Fin 3 → Fin S4x512x512.rank)
  dot_S4x512x512_S4x512x128_S4x512x128_2_1_1_2_0_0_wf : DotDims.WF S4x512x512 S4x512x128 S4x512x128 [2] [1] [1] [2] [0] [0]

variable [Facts₀]

def dot_S4x512x512_S4x512x128_S4x512x128_2_1_1_2_0_0 : DotDims S4x512x512 S4x512x128 S4x512x128 where
  lhsContracting := [2]
  rhsContracting := [1]
  lhsNonContracting := [1]
  rhsNonContracting := [2]
  lhsBatch := [0]
  rhsBatch := [0]
  wf := dot_S4x512x512_S4x512x128_S4x512x128_2_1_1_2_0_0_wf

class Facts : Prop extends Facts₀ where

variable [Facts]
-- ==== Proof.OnlineSoftmax.lean ====
/-
  The algebra of a running softmax, over the reals and read on the extended reals.

  A row of scores is met in consecutive tiles. The running state is a reference level `M` (any real: it need not be the
  maximum for what follows), a denominator `l` and, per output column `d`, a weighted sum `a d`. A state is NORMALISED
  at totals `L`, `A` when `l = exp (-M) * L` and `a d = exp (-M) * A d`. Meeting a new tile with scores `e k` and values
  `w k d` moves the level to some `M'`, multiplies the old state by `exp (M - M')` and adds `∑ exp (e k - M')`
  (respectively `∑ exp (e k - M') * w k d`): the new state is normalised at `L + ∑ exp (e k)` and
  `A d + ∑ exp (e k) * w k d`, because `exp (M - M') * exp (-M) = exp (-M')`. At the end `a d / l = A d / L`: the level cancels.
  The softmax taken in one go, `∑ (exp (s k - M) / ∑ exp (s k' - M)) * v k`, is `(∑ exp (s k) * v k) / ∑ exp (s k)` for the same
  reason. All quantities are real, so every identity is proved in ℝ and carried to the extended reals by the coercion.
-/
import Mathlib
import Idealize.ShloMosaic.PureOps.Ideal

noncomputable section

open scoped BigOperators
open Idealize.ShloMosaic

namespace OnlineSoftmax

/-! ## Real algebra -/

/-- Taking a common level out of a sum of exponentials. -/
theorem sum_exp_sub {K : Type*} (s : Finset K) (e : K → ℝ) (M : ℝ) :
    ∑ k ∈ s, Real.exp (e k - M) = Real.exp (-M) * ∑ k ∈ s, Real.exp (e k) := by
  rw [Finset.mul_sum]
  refine Finset.sum_congr rfl fun k _ => ?_
  rw [← Real.exp_add]
  congr 1; ring

/-- The same under weights. -/
theorem sum_exp_sub_mul {K : Type*} (s : Finset K) (e w : K → ℝ) (M : ℝ) :
    ∑ k ∈ s, Real.exp (e k - M) * w k = Real.exp (-M) * ∑ k ∈ s, Real.exp (e k) * w k := by
  rw [Finset.mul_sum]
  refine Finset.sum_congr rfl fun k _ => ?_
  rw [← mul_assoc, ← Real.exp_add]
  congr 2; ring

/-- One later tile, in the reals: rescale the normalised old value and add the tile's. -/
theorem step_real (M0 M X T : ℝ) :
    Real.exp (M0 - M) * (Real.exp (-M0) * X) + Real.exp (-M) * T = Real.exp (-M) * (X + T) := by
  have h : Real.exp (M0 - M) * Real.exp (-M0) = Real.exp (-M) := by
    rw [← Real.exp_add]; congr 1; ring
  rw [← mul_assoc, h]; ring

/-! ## Coercions -/

/-- The coercion of a finite real sum is the sum of the coercions. -/
theorem coe_sum {K : Type*} (s : Finset K) (f : K → ℝ) :
    ((∑ k ∈ s, f k : ℝ) : EReal) = ∑ k ∈ s, (f k : EReal) := by
  classical
  refine Finset.induction_on s (by simp) ?_
  intro a s ha ih
  rw [Finset.sum_insert ha, Finset.sum_insert ha, EReal.coe_add, ih]

theorem exp_coe_sub (a b : ℝ) : Ideal.exp ((a : EReal) - (b : EReal)) = ((Real.exp (a - b) : ℝ) : EReal) := by
  rw [← EReal.coe_sub]; rfl

theorem tanh_coe_add (a b : ℝ) : Ideal.tanh ((a : EReal) + (b : EReal)) = ((Real.tanh (a + b) : ℝ) : EReal) := by
  rw [← EReal.coe_add]; rfl

/-- A row's score: a sum of hyperbolic tangents of real sums is real. -/
theorem sum_tanh_coe {D : Type*} [Fintype D] (a b : D → ℝ) :
    ∑ d, Ideal.tanh ((a d : EReal) + (b d : EReal)) = ((∑ d, Real.tanh (a d + b d) : ℝ) : EReal) := by
  rw [coe_sum]; exact Finset.sum_congr rfl fun d _ => tanh_coe_add _ _

theorem sum_exp_coe {K : Type*} [Fintype K] (e : K → ℝ) (M : ℝ) :
    ∑ k, Ideal.exp ((e k : EReal) - (M : EReal)) = ((∑ k, Real.exp (e k - M) : ℝ) : EReal) := by
  rw [coe_sum]; exact Finset.sum_congr rfl fun k _ => exp_coe_sub _ _

theorem sum_exp_mul_coe {K : Type*} [Fintype K] (e w : K → ℝ) (M : ℝ) :
    ∑ k, Ideal.exp ((e k : EReal) - (M : EReal)) * (w k : EReal) = ((∑ k, Real.exp (e k - M) * w k : ℝ) : EReal) := by
  rw [coe_sum]
  refine Finset.sum_congr rfl fun k _ => ?_
  rw [exp_coe_sub, ← EReal.coe_mul]

/-- The maximum of finitely many reals (at least one), taken from `-∞`, is a real. -/
theorem fold_max_real {K : Type*} [Fintype K] [Nonempty K] (e : K → ℝ) :
    ∃ M : ℝ, (Finset.univ : Finset K).fold max (⊥ : EReal) (fun k => (e k : EReal)) = (M : EReal) := by
  set x := (Finset.univ : Finset K).fold max (⊥ : EReal) (fun k => (e k : EReal)) with hx
  have hlt : x < ⊤ := by
    rw [hx, Finset.fold_max_lt]
    exact ⟨bot_lt_top, fun k _ => EReal.coe_lt_top _⟩
  have hgt : ⊥ < x := by
    obtain ⟨k0⟩ := ‹Nonempty K›
    have : (e k0 : EReal) ≤ x := by
      rw [hx, Finset.le_fold_max]; exact Or.inr ⟨k0, Finset.mem_univ _, le_rfl⟩
    exact lt_of_lt_of_le (EReal.bot_lt_coe _) this
  exact ⟨x.toReal, (EReal.coe_toReal hlt.ne hgt.ne').symm⟩

/-! ## The running state on the extended reals -/

/-- The state `(m, l, a)` is normalised at totals `L`, `A`. -/
def Normalised {D : Type*} (m l : EReal) (a : D → EReal) (L : ℝ) (A : D → ℝ) : Prop :=
  ∃ M : ℝ, m = (M : EReal) ∧ l = ((Real.exp (-M) * L : ℝ) : EReal) ∧ ∀ d, a d = ((Real.exp (-M) * A d : ℝ) : EReal)

variable {K D : Type*} [Fintype K] [Nonempty K]

/-- The first tile: from level `-∞` and zero sums. The rescaling factor `exp (-∞ - M)` is `0`. -/
theorem first_tile (e : K → ℝ) (w : K → D → ℝ) (mnew lnew : EReal) (anew : D → EReal)
    (hm : mnew = max (⊥ : EReal) ((Finset.univ : Finset K).fold max (⊥ : EReal) (fun k => (e k : EReal))))
    (hl : lnew = Ideal.exp ((⊥ : EReal) - mnew) * 0 + ∑ k, Ideal.exp ((e k : EReal) - mnew))
    (ha : ∀ d, anew d = Ideal.exp ((⊥ : EReal) - mnew) * 0 + ∑ k, Ideal.exp ((e k : EReal) - mnew) * (w k d : EReal)) :
    Normalised mnew lnew anew (∑ k, Real.exp (e k)) (fun d => ∑ k, Real.exp (e k) * w k d) := by
  obtain ⟨M, hM⟩ := fold_max_real e
  have hm' : mnew = (M : EReal) := by rw [hm, hM]; exact max_eq_right bot_le
  refine ⟨M, hm', ?_, fun d => ?_⟩
  · rw [hl, hm']; simp only [mul_zero, zero_add]; rw [sum_exp_coe, sum_exp_sub]
  · rw [ha d, hm']; simp only [mul_zero, zero_add]; rw [sum_exp_mul_coe, sum_exp_sub_mul]

/-- A later tile: the old state, normalised at `L`, `A`, rescaled and added to. -/
theorem later_tile (e : K → ℝ) (w : K → D → ℝ) (m l : EReal) (a : D → EReal) (L : ℝ) (A : D → ℝ)
    (h : Normalised m l a L A) (mnew lnew : EReal) (anew : D → EReal)
    (hm : mnew = max m ((Finset.univ : Finset K).fold max (⊥ : EReal) (fun k => (e k : EReal))))
    (hl : lnew = Ideal.exp (m - mnew) * l + ∑ k, Ideal.exp ((e k : EReal) - mnew))
    (ha : ∀ d, anew d = Ideal.exp (m - mnew) * a d + ∑ k, Ideal.exp ((e k : EReal) - mnew) * (w k d : EReal)) :
    Normalised mnew lnew anew (L + ∑ k, Real.exp (e k)) (fun d => A d + ∑ k, Real.exp (e k) * w k d) := by
  obtain ⟨M0, hm0, hl0, ha0⟩ := h
  obtain ⟨Mt, hMt⟩ := fold_max_real e
  have hm' : mnew = ((max M0 Mt : ℝ) : EReal) := by rw [hm, hm0, hMt]; exact (EReal.coe_strictMono.monotone.map_max).symm
  refine ⟨max M0 Mt, hm', ?_, fun d => ?_⟩
  · rw [hl, hm', hm0, hl0, exp_coe_sub, sum_exp_coe, ← EReal.coe_mul, ← EReal.coe_add, sum_exp_sub, step_real]
  · rw [ha d, hm', hm0, ha0 d, exp_coe_sub, sum_exp_mul_coe, ← EReal.coe_mul, ← EReal.coe_add, sum_exp_sub_mul, step_real]

/-- At the end the quotient forgets the level. -/
theorem quotient {D : Type*} (m l : EReal) (a : D → EReal) (L : ℝ) (A : D → ℝ) (h : Normalised m l a L A) (hL : 0 < L) (d : D) :
    Ideal.div (a d) l = ((A d / L : ℝ) : EReal) := by
  obtain ⟨M, -, hl, ha⟩ := h
  have hne : Real.exp (-M) * L ≠ 0 := (mul_pos (Real.exp_pos _) hL).ne'
  rw [ha d, hl, Ideal.div_coe hne, ← EReal.coe_mul]
  congr 1
  have hE : Real.exp (-M) ≠ 0 := (Real.exp_pos _).ne'
  field_simp

/-! ## The softmax taken in one go -/

/-- `∑ (exp (s k - M) / (0 + ∑ exp (s k' - M))) * v k` is the weighted mean with weights `exp (s k)`. -/
theorem softmax_row (s v : K → ℝ) (M : ℝ) :
    ∑ k, Ideal.div (Ideal.exp ((s k : EReal) - (M : EReal))) (0 + ∑ k', Ideal.exp ((s k' : EReal) - (M : EReal))) * (v k : EReal)
      = (((∑ k, Real.exp (s k) * v k) / (∑ k, Real.exp (s k)) : ℝ) : EReal) := by
  have hpos : 0 < ∑ k, Real.exp (s k - M) := Finset.sum_pos (fun k _ => Real.exp_pos _) Finset.univ_nonempty
  have hpos' : 0 < ∑ k, Real.exp (s k) := Finset.sum_pos (fun k _ => Real.exp_pos _) Finset.univ_nonempty
  have hterm : ∀ k, Ideal.div (Ideal.exp ((s k : EReal) - (M : EReal))) (0 + ∑ k', Ideal.exp ((s k' : EReal) - (M : EReal))) * (v k : EReal)
      = ((Real.exp (s k - M) * (1 / ∑ k', Real.exp (s k' - M)) * v k : ℝ) : EReal) := by
    intro k
    rw [sum_exp_coe]; simp only [zero_add]
    rw [exp_coe_sub, Ideal.div_coe hpos.ne', ← EReal.coe_mul, ← EReal.coe_mul]
  rw [Finset.sum_congr rfl (fun k _ => hterm k), ← coe_sum]
  congr 1
  have h1 : ∀ k, Real.exp (s k - M) * (1 / ∑ k', Real.exp (s k' - M)) * v k
      = (Real.exp (s k - M) * v k) * (1 / ∑ k', Real.exp (s k' - M)) := fun k => by ring
  rw [Finset.sum_congr rfl (fun k _ => h1 k), ← Finset.sum_mul, sum_exp_sub_mul, sum_exp_sub]
  have hE : Real.exp (-M) ≠ 0 := (Real.exp_pos _).ne'
  have hS : (∑ k, Real.exp (s k)) ≠ 0 := hpos'.ne'
  field_simp

end OnlineSoftmax

end
-- ==== Proof.Spec.lean ====
/-
  The specification: additive attention as one real function of the two argument arrays.

  For batch `b`, query row `r` and key row `k` the score is `score b r k = ∑_d tanh (q b r d + v b k d)`, and the result at
  `(b, r, d)` is the softmax-weighted mean `(∑_k exp (score b r k) * v b k d) / (∑_k exp (score b r k))`. The 512 key rows
  are written as four tiles of 128 (`kk j k'` is row `128 j + k'`), and the two sums as the tiles' totals added first to
  last, the order in which a tile-by-tile evaluation accumulates them; `sum_tiles` says a sum over all 512 rows is that.
-/
import proofs.«103159_j77970836292244_2_alg».proof.Proof.OnlineSoftmax

noncomputable section

open scoped BigOperators

namespace AddAttn

variable (qr vr : Fin 4 → Fin 512 → Fin 128 → ℝ)

/-- The score of key row `k` for query row `r` of batch `b`. -/
def score (b : Fin 4) (r k : Fin 512) : ℝ := ∑ d : Fin 128, Real.tanh (qr b r d + vr b k d)

/-- Key row `k'` of tile `j`. -/
def kk (j : Fin 4) (k' : Fin 128) : Fin 512 := ⟨128 * j.val + k'.val, by have := j.isLt; have := k'.isLt; omega⟩

/-- Tile `j`'s total weight for a query row. -/
def tileL (b : Fin 4) (r : Fin 512) (j : Fin 4) : ℝ := ∑ k' : Fin 128, Real.exp (score qr vr b r (kk j k'))

/-- Tile `j`'s weighted sum of column `d` of the values. -/
def tileA (b : Fin 4) (r : Fin 512) (j : Fin 4) (d : Fin 128) : ℝ :=
  ∑ k' : Fin 128, Real.exp (score qr vr b r (kk j k')) * vr b (kk j k') d

/-- The result at `(b, r, d)`. -/
def G (b : Fin 4) (r : Fin 512) (d : Fin 128) : ℝ :=
  (tileA qr vr b r 0 d + tileA qr vr b r 1 d + tileA qr vr b r 2 d + tileA qr vr b r 3 d)
    / (tileL qr vr b r 0 + tileL qr vr b r 1 + tileL qr vr b r 2 + tileL qr vr b r 3)

/-- The total weight is positive. -/
theorem tileL_pos (b : Fin 4) (r : Fin 512) (j : Fin 4) : 0 < tileL qr vr b r j :=
  Finset.sum_pos (fun _ _ => Real.exp_pos _) Finset.univ_nonempty

/-- A sum over the 512 key rows is the four tiles' sums added first to last. -/
theorem sum_tiles (f : Fin 512 → ℝ) :
    ∑ k : Fin 512, f k = (∑ k', f (kk 0 k')) + (∑ k', f (kk 1 k')) + (∑ k', f (kk 2 k')) + (∑ k', f (kk 3 k')) := by
  have e : ∑ k : Fin 512, f k = ∑ j : Fin 4, ∑ k' : Fin 128, f (kk j k') := by
    rw [← Fintype.sum_prod_type', ← Equiv.sum_comp (finProdFinEquiv (m := 4) (n := 128))]
    refine Finset.sum_congr rfl fun x _ => congrArg f (Fin.ext ?_)
    simp [kk, finProdFinEquiv]
    omega
  rw [e, Fin.sum_univ_four]

end AddAttn

end
-- ==== Proof.ScoreTile.lean ====
/-
  The score tile of one grid point: `e[p, q] = ∑_d tanh (Q[p, d] + K[q, d])` for the 128 query rows `p` and the 128 key rows
  `q` of the point's two blocks. The body computes it as 128 unrolled steps, step `d` adding
  `tanh (column d of Q, broadcast along lanes + row d of Kᵀ, broadcast along sublanes)` to the running tile, from the zero tile;
  the steps are spread over consecutive payloads. `eTile` names their composition and `eTile_apply` reads it at an index
  as the sum over `d`: each slice and broadcast reads one element of `Q` or `Kᵀ`, and a left-nested chain of 128 additions
  from zero is the sum over `Fin 128`.
-/
import proofs.«103159_j77970836292244_2_alg».proof.Proof.Spec
import proofs.«103159_j77970836292244_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.ValueIdx

namespace Cert.KernelIdeal.Score

open Cert.KernelIdeal Cert.KernelIdeal.Gen

variable {F : FTy → Type} [FloatOps F]

/-- The running tile after steps 0 … 124 (with step 125's two operands begun), as the body's payloads compose. -/
def chain883 (v3 v5 : Vec F S1x128x128 .f32) : FVec F S128x128 .f32 :=
  let v4 := k0_pay6 v3
  let v7 := k0_pay8 v5
  k0_pay41 v4 v7 (k0_pay39 v4 v7 (k0_pay36 v4 v7 (k0_pay34 v4 v7 (k0_pay32 v4 v7 (k0_pay29 v4 v7 (k0_pay28 v4 v7
    (k0_pay25 v4 v7 (k0_pay23 v4 v7 (k0_pay20 v4 v7 (k0_pay18 v4 v7 (k0_pay16 v4 v7 (k0_pay13 v4 v7
      (k0_pay12 v4 v7 (k0_pay9 v3 v5) (k0_pay10 v5) (k0_pay11 v3))) (k0_pay14 v4) (k0_pay15 v7)) (k0_pay17 v4)) (k0_pay19 v4 v7))
      (k0_pay21 v4) (k0_pay22 v7)) (k0_pay24 v4 v7)) (k0_pay26 v7) (k0_pay27 v4))) (k0_pay30 v4) (k0_pay31 v7)) (k0_pay33 v4))
      (k0_pay35 v4 v7)) (k0_pay37 v4) (k0_pay38 v7)) (k0_pay40 v4 v7)

/-- The score tile. -/
def eTile (v3 v5 : Vec F S1x128x128 .f32) : FVec F S128x128 .f32 :=
  k0_pay44 (k0_pay6 v3) (k0_pay8 v5) (chain883 v3 v5) (k0_pay42 (k0_pay8 v5)) (k0_pay43 (k0_pay6 v3))

/-- One summand: `tanh (Q[p, d] + Kᵀ[d, q])`, with the step number read modulo 128 so that it is total in `d`. -/
def term (v4 v7 : FVec Ideal S128x128 .f32) (p q : Fin 128) (d : ℕ) : EReal :=
  Ideal.tanh (v4 (ix2 p ⟨d % 128, Nat.mod_lt _ (by norm_num)⟩) + v7 (ix2 ⟨d % 128, Nat.mod_lt _ (by norm_num)⟩ q))

/-- A `[a, 1]` array broadcast to `[a, b]` reads, at `(r, c)`, the operand's one column at `r`. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- One step of the running tile, read at `(p, q)`. -/
theorem step_apply (v4 v7 e : FVec Ideal S128x128 .f32) (d : ℕ)
    (h1 : S128x128.Slices ![0, d] S128x1) (hb1 : S128x1.Broadcasts S128x128)
    (h2 : S128x128.Slices ![d, 0] S1x128) (hb2 : S1x128.Broadcasts S128x128) (p q : Fin 128) :
    addf e (tanh (addf (broadcastTo S128x128 (extractStridedSlice S128x1 ![0, d] v4 h1) hb1)
      (broadcastTo S128x128 (extractStridedSlice S1x128 ![d, 0] v7 h2) hb2))) (ix2 p q)
      = e (ix2 p q) + term v4 v7 p q d := by
  have hd : d < 128 := by
    obtain ⟨hr, hs⟩ := h1
    have h := hs ⟨1, by decide⟩
    have h' : d + 1 ≤ 128 := h
    omega
  have hm : d % 128 = d := Nat.mod_eq_of_lt hd
  show e (ix2 p q) + Ideal.tanh (broadcastTo S128x128 (extractStridedSlice S128x1 ![0, d] v4 h1) hb1 (ix2 p q)
      + broadcastTo S128x128 (extractStridedSlice S1x128 ![d, 0] v7 h2) hb2 (ix2 p q)) = _
  unfold term
  rw [broadcastTo_a1_ab_apply, broadcastTo_1b_ab_apply,
    extractStridedSlice_apply ![0, d] v4 h1 (ix2 p (0 : Fin 1)) (ix2 p ⟨d % 128, Nat.mod_lt _ (by norm_num)⟩) (fun ax => by
      match ax with
      | ⟨0, _⟩ => show p.val = 0 + p.val; omega
      | ⟨1, _⟩ => show d % 128 = d + 0; omega),
    extractStridedSlice_apply ![d, 0] v7 h2 (ix2 (0 : Fin 1) q) (ix2 ⟨d % 128, Nat.mod_lt _ (by norm_num)⟩ q) (fun ax => by
      match ax with
      | ⟨0, _⟩ => show d % 128 = d + 0; omega
      | ⟨1, _⟩ => show q.val = 0 + q.val; omega)]

set_option maxHeartbeats 1600000 in
/-- The score tile at `(p, q)`: the sum over `d` of `tanh (Q[p, d] + Kᵀ[d, q])`. -/
theorem eTile_apply (v3 v5 : Vec Ideal S1x128x128 .f32) (p q : Fin 128) :
    eTile v3 v5 (ix2 p q) = ∑ d : Fin 128, Ideal.tanh (k0_pay6 v3 (ix2 p d) + k0_pay8 v5 (ix2 d q)) := by
  -- the stated sum is the sum of the summands over the first 128 naturals
  have hR : (∑ d : Fin 128, Ideal.tanh (k0_pay6 v3 (ix2 p d) + k0_pay8 v5 (ix2 d q)))
      = ∑ d ∈ Finset.range 128, term (k0_pay6 v3) (k0_pay8 v5) p q d := by
    rw [← Fin.sum_univ_eq_sum_range (fun d => term (k0_pay6 v3) (k0_pay8 v5) p q d) 128]
    refine Finset.sum_congr rfl fun d _ => ?_
    have hm : d.val % 128 = d.val := Nat.mod_eq_of_lt d.isLt
    have hd : (⟨d.val % 128, Nat.mod_lt _ (by norm_num)⟩ : Fin 128) = d := Fin.ext hm
    unfold term
    rw [hd]
  rw [hR]
  unfold eTile chain883
  simp only [k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, step_apply, broadcast_apply]
  -- the zero tile's entries are the real zero
  have hz : (Scalar.ofBits (F := Ideal) .f32 0x00000000#32) = (0 : EReal) := Ideal.ofBits_zero_f32
  rw [hz]
  -- the sum over the first 128 naturals, written out, is the same left-nested chain of additions from zero
  simp only [Finset.sum_range_succ, Finset.sum_range_zero]

end Cert.KernelIdeal.Score

end
-- ==== Proof.Pieces.lean ====
/-
  What one grid point leaves behind, as functions of what it finds.

  A point loads its query block and its key/value block, forms the score tile `e` and updates the three carried
  quantities: the level `m ← max m (row-max e)`, the denominator `l ← exp (m_old - m_new) * l + row-sum exp (e - m_new)`
  and the weighted sums `acc ← exp (m_old - m_new) * acc + exp (e - m_new) · V`. At a run's first point the three are first
  reset (to `-∞`, `0`, `0`) and then updated; at its last point the output block `acc / l` is stored as well. Each lemma below
  says that the contents a case's stores leave in a carried buffer, or in the output block, are these functions of the
  loaded blocks and of what the buffers held: a covering store's value is what a later read of the buffer finds.
-/
import proofs.«103159_j77970836292244_2_alg».proof.Proof.ScoreTile
import proofs.«103159_j77970836292244_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Tile

open Cert.KernelIdeal Cert.KernelIdeal.Gen Cert.KernelIdeal.Score

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The new level: the old one against the score tile's row maxima. -/
def mNew (x0 x1 : Vec F S1x128x128 .f32) (mold : Vec F S128x1 .f32) : FVec F S128x1 .f32 :=
  k0_pay45 (k0_pay6 x0) (k0_pay8 x1) (chain883 x0 x1) (k0_pay42 (k0_pay8 x1)) (k0_pay43 (k0_pay6 x0)) mold

/-- The new denominator. -/
def lNew (x0 x1 : Vec F S1x128x128 .f32) (mold lold : Vec F S128x1 .f32) : FVec F S128x1 .f32 :=
  k0_pay48 (k0_pay6 x0) (k0_pay8 x1) (chain883 x0 x1) (k0_pay42 (k0_pay8 x1)) (k0_pay43 (k0_pay6 x0)) mold mold lold

/-- The new weighted sums. -/
def accNew (x0 x1 : Vec F S1x128x128 .f32) (mold : Vec F S128x1 .f32) (aold : Vec F S128x128 .f32) : FVec F S128x128 .f32 :=
  k0_pay49 (k0_pay6 x0) (k0_pay7 x1) (k0_pay8 x1) (chain883 x0 x1) (k0_pay42 (k0_pay8 x1)) (k0_pay43 (k0_pay6 x0)) mold mold aold

/-! ## A middle point: the three carried buffers -/

theorem sout_B_0 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x128 .f32) (harg8 : arg8.IsWhole) (hc0 : ¬cond0_0 i) (hc1 : ¬cond0_1 i) (x0 : Vec F S1x128x128 .f32) (x1 : Vec F S1x128x128 .f32) (xs0 : Vec F S128x1 .f32) (xs1 : Vec F S128x1 .f32) (xs2 : Vec F S128x128 .f32) :
    sout0_B_0 c i arg3 harg3 arg4 harg4 arg5 harg5 arg6 harg6 arg7 harg7 arg8 harg8 hc0 hc1 x0 x1 xs0 xs1 xs2 = k0_pay1 (mNew x0 x1 xs0) := by
  unfold sout0_B_0
  rw [View.read_writes_eq_canon _ _ _ (scover0_B_0 c i arg3 harg3 arg4 harg4 arg5 harg5 arg6 harg6 arg7 harg7 arg8 harg8 hc0 hc1 x0 x1 xs0 xs1 xs2)]
  unfold kernelRun0_B
  dsimp only
  sl_unfold_words
  rw [View.canon_unit_zero hz2]
  simp only [View.readAt_eq_ld, harg3.read_unread, harg4.read_unread, harg6.read_unread, harg7.read_unread, harg8.read_unread, View.ld_unit_zero (S := S128x1) hz2, View.ld_unit_zero (S := S128x128) hz2, View.ld_unit_zero (S := S1x128x128) hz3]
  rfl

theorem sout_B_1 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x128 .f32) (harg8 : arg8.IsWhole) (hc0 : ¬cond0_0 i) (hc1 : ¬cond0_1 i) (x0 : Vec F S1x128x128 .f32) (x1 : Vec F S1x128x128 .f32) (xs0 : Vec F S128x1 .f32) (xs1 : Vec F S128x1 .f32) (xs2 : Vec F S128x128 .f32) :
    sout0_B_1 c i arg3 harg3 arg4 harg4 arg5 harg5 arg6 harg6 arg7 harg7 arg8 harg8 hc0 hc1 x0 x1 xs0 xs1 xs2 = lNew x0 x1 xs0 xs1 := by
  unfold sout0_B_1
  rw [View.read_writes_eq_canon _ _ _ (scover0_B_1 c i arg3 harg3 arg4 harg4 arg5 harg5 arg6 harg6 arg7 harg7 arg8 harg8 hc0 hc1 x0 x1 xs0 xs1 xs2)]
  unfold kernelRun0_B
  dsimp only
  sl_unfold_words
  rw [View.canon_unit_zero hz2]
  simp only [View.readAt_eq_ld, harg3.read_unread, harg4.read_unread, harg6.read_unread, harg7.read_unread, harg8.read_unread, View.ld_unit_zero (S := S128x1) hz2, View.ld_unit_zero (S := S128x128) hz2, View.ld_unit_zero (S := S1x128x128) hz3]
  rfl

theorem sout_B_2 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x128 .f32) (harg8 : arg8.IsWhole) (hc0 : ¬cond0_0 i) (hc1 : ¬cond0_1 i) (x0 : Vec F S1x128x128 .f32) (x1 : Vec F S1x128x128 .f32) (xs0 : Vec F S128x1 .f32) (xs1 : Vec F S128x1 .f32) (xs2 : Vec F S128x128 .f32) :
    sout0_B_2 c i arg3 harg3 arg4 harg4 arg5 harg5 arg6 harg6 arg7 harg7 arg8 harg8 hc0 hc1 x0 x1 xs0 xs1 xs2 = accNew x0 x1 xs0 xs2 := by
  unfold sout0_B_2
  rw [View.read_writes_eq_canon _ _ _ (scover0_B_2 c i arg3 harg3 arg4 harg4 arg5 harg5 arg6 harg6 arg7 harg7 arg8 harg8 hc0 hc1 x0 x1 xs0 xs1 xs2)]
  unfold kernelRun0_B
  dsimp only
  sl_unfold_words
  rw [View.canon_unit_zero hz2]
  simp only [View.readAt_eq_ld, harg3.read_unread, harg4.read_unread, harg6.read_unread, harg7.read_unread, harg8.read_unread, View.ld_unit_zero (S := S128x1) hz2, View.ld_unit_zero (S := S128x128) hz2, View.ld_unit_zero (S := S1x128x128) hz3]
  rfl

/-! ## A run's first point: reset, then update -/

theorem sout_A_0 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x128 .f32) (harg8 : arg8.IsWhole) (hc0 : cond0_0 i) (hc1 : ¬cond0_1 i) (x0 : Vec F S1x128x128 .f32) (x1 : Vec F S1x128x128 .f32) :
    sout0_A_0 c i arg3 harg3 arg4 harg4 arg5 harg5 arg6 harg6 arg7 harg7 arg8 harg8 hc0 hc1 x0 x1 = k0_pay1 (mNew x0 x1 k0_pay3) := by
  unfold sout0_A_0
  rw [View.read_writes_eq_canon _ _ _ (scover0_A_0 c i arg3 harg3 arg4 harg4 arg5 harg5 arg6 harg6 arg7 harg7 arg8 harg8 hc0 hc1 x0 x1)]
  unfold kernelRun0_A
  dsimp only
  rw [View.canon_cons_unit_zero (S := S128x1) hz2]
  sl_unfold_words
  simp only [View.readCov_unit_zero (S := S128x1) _ hz2, View.readCov_unit_zero (S := S128x128) _ hz2, View.readAt_eq_ld, harg3.read_unread, harg4.read_unread, harg6.read_unread, harg7.read_unread, harg8.read_unread, View.ld_unit_zero (S := S128x1) hz2, View.ld_unit_zero (S := S128x128) hz2, View.ld_unit_zero (S := S1x128x128) hz3]
  rfl

theorem sout_A_1 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x128 .f32) (harg8 : arg8.IsWhole) (hc0 : cond0_0 i) (hc1 : ¬cond0_1 i) (x0 : Vec F S1x128x128 .f32) (x1 : Vec F S1x128x128 .f32) :
    sout0_A_1 c i arg3 harg3 arg4 harg4 arg5 harg5 arg6 harg6 arg7 harg7 arg8 harg8 hc0 hc1 x0 x1 = lNew x0 x1 k0_pay3 k0_pay4 := by
  unfold sout0_A_1
  rw [View.read_writes_eq_canon _ _ _ (scover0_A_1 c i arg3 harg3 arg4 harg4 arg5 harg5 arg6 harg6 arg7 harg7 arg8 harg8 hc0 hc1 x0 x1)]
  unfold kernelRun0_A
  dsimp only
  rw [View.canon_cons_unit_zero (S := S128x1) hz2]
  sl_unfold_words
  simp only [View.readCov_unit_zero (S := S128x1) _ hz2, View.readCov_unit_zero (S := S128x128) _ hz2, View.readAt_eq_ld, harg3.read_unread, harg4.read_unread, harg6.read_unread, harg7.read_unread, harg8.read_unread, View.ld_unit_zero (S := S128x1) hz2, View.ld_unit_zero (S := S128x128) hz2, View.ld_unit_zero (S := S1x128x128) hz3]
  rfl

theorem sout_A_2 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x128 .f32) (harg8 : arg8.IsWhole) (hc0 : cond0_0 i) (hc1 : ¬cond0_1 i) (x0 : Vec F S1x128x128 .f32) (x1 : Vec F S1x128x128 .f32) :
    sout0_A_2 c i arg3 harg3 arg4 harg4 arg5 harg5 arg6 harg6 arg7 harg7 arg8 harg8 hc0 hc1 x0 x1 = accNew x0 x1 k0_pay3 k0_pay5 := by
  unfold sout0_A_2
  rw [View.read_writes_eq_canon _ _ _ (scover0_A_2 c i arg3 harg3 arg4 harg4 arg5 harg5 arg6 harg6 arg7 harg7 arg8 harg8 hc0 hc1 x0 x1)]
  unfold kernelRun0_A
  dsimp only
  rw [View.canon_cons_unit_zero (S := S128x128) hz2]
  sl_unfold_words
  simp only [View.readCov_unit_zero (S := S128x1) _ hz2, View.readCov_unit_zero (S := S128x128) _ hz2, View.readAt_eq_ld, harg3.read_unread, harg4.read_unread, harg6.read_unread, harg7.read_unread, harg8.read_unread, View.ld_unit_zero (S := S128x1) hz2, View.ld_unit_zero (S := S128x128) hz2, View.ld_unit_zero (S := S1x128x128) hz3]
  rfl

/-! ## A run's last point: update, then store the output block -/

theorem sout_C_0 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x128 .f32) (harg8 : arg8.IsWhole) (hc0 : ¬cond0_0 i) (hc1 : cond0_1 i) (x0 : Vec F S1x128x128 .f32) (x1 : Vec F S1x128x128 .f32) (xs0 : Vec F S128x1 .f32) (xs1 : Vec F S128x1 .f32) (xs2 : Vec F S128x128 .f32) :
    sout0_C_0 c i arg3 harg3 arg4 harg4 arg5 harg5 arg6 harg6 arg7 harg7 arg8 harg8 hc0 hc1 x0 x1 xs0 xs1 xs2 = k0_pay1 (mNew x0 x1 xs0) := by
  unfold sout0_C_0
  rw [View.read_writes_eq_canon _ _ _ (scover0_C_0 c i arg3 harg3 arg4 harg4 arg5 harg5 arg6 harg6 arg7 harg7 arg8 harg8 hc0 hc1 x0 x1 xs0 xs1 xs2)]
  unfold kernelRun0_C
  dsimp only
  sl_unfold_words
  rw [View.canon_unit_zero hz2]
  simp only [View.readCov_unit_zero (S := S128x1) _ hz2, View.readCov_unit_zero (S := S128x128) _ hz2, View.readAt_eq_ld, harg3.read_unread, harg4.read_unread, harg6.read_unread, harg7.read_unread, harg8.read_unread, View.ld_unit_zero (S := S128x1) hz2, View.ld_unit_zero (S := S128x128) hz2, View.ld_unit_zero (S := S1x128x128) hz3]
  rfl

theorem sout_C_1 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x128 .f32) (harg8 : arg8.IsWhole) (hc0 : ¬cond0_0 i) (hc1 : cond0_1 i) (x0 : Vec F S1x128x128 .f32) (x1 : Vec F S1x128x128 .f32) (xs0 : Vec F S128x1 .f32) (xs1 : Vec F S128x1 .f32) (xs2 : Vec F S128x128 .f32) :
    sout0_C_1 c i arg3 harg3 arg4 harg4 arg5 harg5 arg6 harg6 arg7 harg7 arg8 harg8 hc0 hc1 x0 x1 xs0 xs1 xs2 = lNew x0 x1 xs0 xs1 := by
  unfold sout0_C_1
  rw [View.read_writes_eq_canon _ _ _ (scover0_C_1 c i arg3 harg3 arg4 harg4 arg5 harg5 arg6 harg6 arg7 harg7 arg8 harg8 hc0 hc1 x0 x1 xs0 xs1 xs2)]
  unfold kernelRun0_C
  dsimp only
  sl_unfold_words
  rw [View.canon_unit_zero hz2]
  simp only [View.readCov_unit_zero (S := S128x1) _ hz2, View.readCov_unit_zero (S := S128x128) _ hz2, View.readAt_eq_ld, harg3.read_unread, harg4.read_unread, harg6.read_unread, harg7.read_unread, harg8.read_unread, View.ld_unit_zero (S := S128x1) hz2, View.ld_unit_zero (S := S128x128) hz2, View.ld_unit_zero (S := S1x128x128) hz3]
  rfl

theorem sout_C_2 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x128 .f32) (harg8 : arg8.IsWhole) (hc0 : ¬cond0_0 i) (hc1 : cond0_1 i) (x0 : Vec F S1x128x128 .f32) (x1 : Vec F S1x128x128 .f32) (xs0 : Vec F S128x1 .f32) (xs1 : Vec F S128x1 .f32) (xs2 : Vec F S128x128 .f32) :
    sout0_C_2 c i arg3 harg3 arg4 harg4 arg5 harg5 arg6 harg6 arg7 harg7 arg8 harg8 hc0 hc1 x0 x1 xs0 xs1 xs2 = accNew x0 x1 xs0 xs2 := by
  unfold sout0_C_2
  rw [View.read_writes_eq_canon _ _ _ (scover0_C_2 c i arg3 harg3 arg4 harg4 arg5 harg5 arg6 harg6 arg7 harg7 arg8 harg8 hc0 hc1 x0 x1 xs0 xs1 xs2)]
  unfold kernelRun0_C
  dsimp only
  sl_unfold_words
  rw [View.canon_unit_zero hz2]
  simp only [View.readCov_unit_zero (S := S128x1) _ hz2, View.readCov_unit_zero (S := S128x128) _ hz2, View.readAt_eq_ld, harg3.read_unread, harg4.read_unread, harg6.read_unread, harg7.read_unread, harg8.read_unread, View.ld_unit_zero (S := S128x1) hz2, View.ld_unit_zero (S := S128x128) hz2, View.ld_unit_zero (S := S1x128x128) hz3]
  rfl

theorem out_C_2 (c : Dev nD) (i : grid0.Coords) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S128x1 .f32) (harg6 : arg6.IsWhole) (arg7 : Memref sig .tc .vmem S128x1 .f32) (harg7 : arg7.IsWhole) (arg8 : Memref sig .tc .vmem S128x128 .f32) (harg8 : arg8.IsWhole) (hc0 : ¬cond0_0 i) (hc1 : cond0_1 i) (x0 : Vec F S1x128x128 .f32) (x1 : Vec F S1x128x128 .f32) (xs0 : Vec F S128x1 .f32) (xs1 : Vec F S128x1 .f32) (xs2 : Vec F S128x128 .f32) :
    out0_C_2 c i arg3 harg3 arg4 harg4 arg5 harg5 arg6 harg6 arg7 harg7 arg8 harg8 hc0 hc1 x0 x1 xs0 xs1 xs2 = k0_pay2 (accNew x0 x1 xs0 xs2) (lNew x0 x1 xs0 xs1) := by
  unfold out0_C_2
  rw [View.read_writes_eq_canon _ _ _ (cover0_C_2 c i arg3 harg3 arg4 harg4 arg5 harg5 arg6 harg6 arg7 harg7 arg8 harg8 hc0 hc1 x0 x1 xs0 xs1 xs2)]
  unfold kernelRun0_C
  dsimp only
  sl_unfold_words
  rw [View.canon_unit_zero hz3]
  simp only [View.readCov_unit_zero (S := S128x1) _ hz2, View.readCov_unit_zero (S := S128x128) _ hz2, View.readAt_eq_ld, harg3.read_unread, harg4.read_unread, harg6.read_unread, harg7.read_unread, harg8.read_unread, View.ld_unit_zero (S := S128x1) hz2, View.ld_unit_zero (S := S128x128) hz2, View.ld_unit_zero (S := S1x128x128) hz3]
  rfl

end Cert.KernelIdeal.Tile

end
-- ==== Proof.Update.lean ====
/-
  One tile's update, read element by element at the ideal values.

  With `e` the score tile, for a query row `p` (all three carried buffers are read at row `p`):
    the new level        `m' p   = max (m p) (max_q e p q)`  (the row maximum taken from `-∞`),
    the new denominator  `l' p   = exp (m p - m' p) * l p + ∑_q exp (e p q - m' p)`,
    the new weighted sum `a' p d = exp (m p - m' p) * a p d + ∑_q exp (e p q - m' p) * V q d`,
  and the output block is `a p d / l p`. A lane reduction is a fold or a sum over the row's 128 columns, the matrix product a
  sum over its one contracted axis, and every cast, broadcast and transpose reads one element of its operand.
-/
import proofs.«103159_j77970836292244_2_alg».proof.Proof.Pieces

set_option maxRecDepth 16384

noncomputable section

open scoped BigOperators
open Idealize.ShloMosaic Idealize.ShloMosaic.ValueIdx

namespace Cert.KernelIdeal.Tile

open Cert.KernelIdeal Cert.KernelIdeal.Gen Cert.KernelIdeal.Score

/-! ## Layout and reduction, one element at a time -/

/-- The word `0xFF800000` is `-∞`. -/
theorem bot_f32 : FloatOps.ofBits (F := Ideal) .f32 0xFF800000#32 = (⊥ : EReal) := by
  simp [Ideal.ofBits, Ideal.ieee]

/-- The word `0x00000000` is `0`. -/
theorem zero_f32 : FloatOps.ofBits (F := Ideal) .f32 0x00000000#32 = (0 : EReal) := Ideal.ofBits_zero_f32

/-- A column `[128, 1]` broadcast along the lanes reads the column's entry of the row. -/
theorem bcastCol_apply {α : Type} (v : S128x1.Idx → α) (h : S128x1.Broadcasts S128x128) (p q : Fin 128) :
    broadcastTo S128x128 v h (ix2 p q) = v (ix2 p (0 : Fin 1)) := by
  refine broadcastTo_apply v h (ix2 p q) (ix2 p (0 : Fin 1)) fun a => ?_
  match a with
  | ⟨0, _⟩ => show p.val = if (128 : Nat) = 1 then 0 else p.val; rw [if_neg (by decide)]
  | ⟨1, _⟩ => show (0 : Nat) = if (1 : Nat) = 1 then 0 else q.val; rw [if_pos rfl]

/-- A reduced row index with the column put back is `(p, k)`. -/
theorem lift_row (h : S128x128.Reduces [1] S128) (p : Fin 128) (k : Fin (S128x128.size 1)) :
    h.lift (ix1 p) k = ix2 p (⟨k.val, k.isLt⟩ : Fin 128) := by
  funext c; apply Fin.ext
  fin_cases c <;> rfl

/-- A vector `[128]` cast to a column `[128, 1]` reads its entry. -/
theorem castCol_apply {α : Type} (v : S128.Idx → α) (h : S128.ShapeCasts S128x1) (p : Fin 128) :
    shapeCast S128x1 v h (ix2 p (0 : Fin 1)) = v (ix1 p) :=
  shapeCast_apply v h _ _ (by
    rw [Shape.rowMajor_val_one, Shape.rowMajor_val_two]
    show p.val = p.val * 1 + 0
    omega)

/-- A row's maximum, taken from `-∞`. -/
theorem rowMax_apply (e : FVec Ideal S128x128 .f32) (h : S128x128.Reduces [1] S128) (p : Fin 128) :
    multiReduction .maximumf [1] S128 e 0xFF800000#32 h (.inl rfl) rfl (ix1 p)
      = (Finset.univ : Finset (Fin 128)).fold max (⊥ : EReal) (fun q => e (ix2 p q)) := by
  refine (Ideal.multiReduction_maximumf_single e 0xFF800000#32 h (.inl rfl) rfl (ix1 p)).trans ?_
  rw [bot_f32]
  exact congrArg (fun f => Finset.fold max (⊥ : EReal) f (Finset.univ : Finset (Fin 128))) (funext fun k => congrArg e (lift_row h p k))

/-- A row's sum. -/
theorem rowSum_apply (e : FVec Ideal S128x128 .f32) (h : S128x128.Reduces [1] S128) (p : Fin 128) :
    multiReduction .add [1] S128 e 0x00000000#32 h (.inl rfl) rfl (ix1 p) = ∑ q : Fin 128, e (ix2 p q) := by
  refine (Ideal.multiReduction_add_single e 0x00000000#32 h (.inl rfl) rfl (ix1 p)).trans ?_
  exact Finset.sum_congr rfl fun k _ => congrArg e (lift_row h p k)

/-- The matrix product's operand indices: the row of the left operand and the column of the right one are the output's, the
    other two coordinates the contracted one. -/
theorem lhs_row (j : S128x128.Idx) (q : dot_S128x128_S128x128_S128x128_1_0_0_1_n_n.contr.Idx) :
    (dot_S128x128_S128x128_S128x128_1_0_0_1_n_n.lhsIdx j q 0).val = (j 0).val := by
  unfold DotDims.lhsIdx
  rw [dif_neg (show ¬(0 : Fin S128x128.rank) ∈ dot_S128x128_S128x128_S128x128_1_0_0_1_n_n.lhsBatch by decide),
    dif_pos (show (0 : Fin S128x128.rank) ∈ dot_S128x128_S128x128_S128x128_1_0_0_1_n_n.lhsNonContracting by decide)]
  rfl
theorem lhs_col (j : S128x128.Idx) (q : dot_S128x128_S128x128_S128x128_1_0_0_1_n_n.contr.Idx) :
    (dot_S128x128_S128x128_S128x128_1_0_0_1_n_n.lhsIdx j q 1).val = (q ⟨0, by decide⟩).val :=
  dot_S128x128_S128x128_S128x128_1_0_0_1_n_n.lhsIdx_val_of_single rfl j q
theorem rhs_row (j : S128x128.Idx) (q : dot_S128x128_S128x128_S128x128_1_0_0_1_n_n.contr.Idx) :
    (dot_S128x128_S128x128_S128x128_1_0_0_1_n_n.rhsIdx j q 0).val = (q ⟨0, by decide⟩).val :=
  dot_S128x128_S128x128_S128x128_1_0_0_1_n_n.rhsIdx_val_of_single rfl j q
theorem rhs_col (j : S128x128.Idx) (q : dot_S128x128_S128x128_S128x128_1_0_0_1_n_n.contr.Idx) :
    (dot_S128x128_S128x128_S128x128_1_0_0_1_n_n.rhsIdx j q 1).val = (j 1).val := by
  unfold DotDims.rhsIdx
  rw [dif_neg (show ¬(1 : Fin S128x128.rank) ∈ dot_S128x128_S128x128_S128x128_1_0_0_1_n_n.rhsBatch by decide),
    dif_pos (show (1 : Fin S128x128.rank) ∈ dot_S128x128_S128x128_S128x128_1_0_0_1_n_n.rhsNonContracting by decide)]
  rfl

/-- The matrix product into a zero accumulator, at `(p, d)`: the sum over the contracted column `q`. -/
theorem matmul_zero_apply (lhs rhs : FVec Ideal S128x128 .f32) (p d : Fin 128) :
    matmul dot_S128x128_S128x128_S128x128_1_0_0_1_n_n none lhs rhs (constant S128x128 .f32 0x00000000#32) (ix2 p d)
      = ∑ q : Fin 128, lhs (ix2 p q) * rhs (ix2 q d) := by
  simp only [matmul]
  rw [Ideal.matmul_constant_zero_apply,
    ← Equiv.sum_comp (ValueIdx.contrEquiv1 dot_S128x128_S128x128_S128x128_1_0_0_1_n_n 128 rfl rfl).symm]
  refine Finset.sum_congr rfl fun k _ => ?_
  have hk := ValueIdx.contrEquiv1_symm_val dot_S128x128_S128x128_S128x128_1_0_0_1_n_n 128 rfl rfl k
  have el : dot_S128x128_S128x128_S128x128_1_0_0_1_n_n.lhsIdx (ix2 p d)
      ((ValueIdx.contrEquiv1 dot_S128x128_S128x128_S128x128_1_0_0_1_n_n 128 rfl rfl).symm k) = ix2 p k :=
    funext fun a => Fin.ext (by
      match a with
      | ⟨0, _⟩ => exact lhs_row _ _
      | ⟨1, _⟩ => exact (lhs_col _ _).trans hk)
  have er : dot_S128x128_S128x128_S128x128_1_0_0_1_n_n.rhsIdx (ix2 p d)
      ((ValueIdx.contrEquiv1 dot_S128x128_S128x128_S128x128_1_0_0_1_n_n 128 rfl rfl).symm k) = ix2 k d :=
    funext fun a => Fin.ext (by
      match a with
      | ⟨0, _⟩ => exact (rhs_row _ _).trans hk
      | ⟨1, _⟩ => exact rhs_col _ _)
  rw [el, er]

/-! ## The loaded blocks -/

/-- The query block as a matrix. -/
theorem q_apply (x0 : Vec Ideal S1x128x128 .f32) (p d : Fin 128) : k0_pay6 x0 (ix2 p d) = x0 (ix3 (0 : Fin 1) p d) := by
  unfold k0_pay6; exact shapeCast_1ab_ab_apply x0 _ p d

/-- The key/value block as a matrix. -/
theorem kv_apply (x1 : Vec Ideal S1x128x128 .f32) (q d : Fin 128) : k0_pay7 x1 (ix2 q d) = x1 (ix3 (0 : Fin 1) q d) := by
  unfold k0_pay7; exact shapeCast_1ab_ab_apply x1 _ q d

/-- Its transpose. -/
theorem kT_apply (x1 : Vec Ideal S1x128x128 .f32) (d q : Fin 128) : k0_pay8 x1 (ix2 d q) = x1 (ix3 (0 : Fin 1) q d) := by
  unfold k0_pay8
  rw [transpose_ix2_apply (k0_pay7 x1) _ d q, kv_apply]

/-! ## The three updates and the output -/

/-- The stored level is the new level (the cast between equal shapes is the identity). -/
theorem pay1_eq (v : FVec Ideal S128x1 .f32) : k0_pay1 v = v := by
  unfold k0_pay1; exact shapeCast_self v _

theorem mNew_apply (x0 x1 : Vec Ideal S1x128x128 .f32) (mold : Vec Ideal S128x1 .f32) (p : Fin 128) :
    mNew x0 x1 mold (ix2 p (0 : Fin 1))
      = max (mold (ix2 p (0 : Fin 1))) ((Finset.univ : Finset (Fin 128)).fold max (⊥ : EReal) (fun q => eTile x0 x1 (ix2 p q))) := by
  unfold mNew k0_pay45
  show max (mold (ix2 p 0)) (shapeCast S128x1 _ _ (ix2 p 0)) = _
  refine congrArg (max (mold (ix2 p 0))) ?_
  refine (castCol_apply _ _ p).trans ?_
  exact rowMax_apply _ _ p

theorem pTile_apply (x0 x1 : Vec Ideal S1x128x128 .f32) (mold : Vec Ideal S128x1 .f32) (p q : Fin 128) :
    k0_pay47 (k0_pay6 x0) (k0_pay8 x1) (chain883 x0 x1) (k0_pay42 (k0_pay8 x1)) (k0_pay43 (k0_pay6 x0)) mold (ix2 p q)
      = Ideal.exp (eTile x0 x1 (ix2 p q) - mNew x0 x1 mold (ix2 p (0 : Fin 1))) := by
  unfold k0_pay47
  show Ideal.exp (_ - broadcastTo S128x128 _ _ (ix2 p q)) = _
  rw [bcastCol_apply]
  rfl

theorem alpha_apply (x0 x1 : Vec Ideal S1x128x128 .f32) (mold : Vec Ideal S128x1 .f32) (p : Fin 128) :
    k0_pay46 (k0_pay6 x0) (k0_pay8 x1) (chain883 x0 x1) (k0_pay42 (k0_pay8 x1)) (k0_pay43 (k0_pay6 x0)) mold mold (ix2 p (0 : Fin 1))
      = Ideal.exp (mold (ix2 p (0 : Fin 1)) - mNew x0 x1 mold (ix2 p (0 : Fin 1))) := by
  unfold k0_pay46
  rfl

theorem lNew_apply (x0 x1 : Vec Ideal S1x128x128 .f32) (mold lold : Vec Ideal S128x1 .f32) (p : Fin 128) :
    lNew x0 x1 mold lold (ix2 p (0 : Fin 1))
      = Ideal.exp (mold (ix2 p (0 : Fin 1)) - mNew x0 x1 mold (ix2 p (0 : Fin 1))) * lold (ix2 p (0 : Fin 1))
        + ∑ q : Fin 128, Ideal.exp (eTile x0 x1 (ix2 p q) - mNew x0 x1 mold (ix2 p (0 : Fin 1))) := by
  unfold lNew k0_pay48
  rw [shapeCast_self]
  show k0_pay46 _ _ _ _ _ mold mold (ix2 p 0) * lold (ix2 p 0) + shapeCast S128x1 _ _ (ix2 p 0) = _
  refine congrArg₂ (· + ·) (congrArg (· * lold (ix2 p 0)) (alpha_apply x0 x1 mold p)) ?_
  exact (castCol_apply _ _ p).trans ((rowSum_apply _ _ p).trans (Finset.sum_congr rfl fun q _ => pTile_apply x0 x1 mold p q))

theorem accNew_apply (x0 x1 : Vec Ideal S1x128x128 .f32) (mold : Vec Ideal S128x1 .f32) (aold : Vec Ideal S128x128 .f32) (p d : Fin 128) :
    accNew x0 x1 mold aold (ix2 p d)
      = Ideal.exp (mold (ix2 p (0 : Fin 1)) - mNew x0 x1 mold (ix2 p (0 : Fin 1))) * aold (ix2 p d)
        + ∑ q : Fin 128, Ideal.exp (eTile x0 x1 (ix2 p q) - mNew x0 x1 mold (ix2 p (0 : Fin 1))) * x1 (ix3 (0 : Fin 1) q d) := by
  unfold accNew k0_pay49
  rw [shapeCast_self]
  show broadcastTo S128x128 _ _ (ix2 p d) * aold (ix2 p d) + matmul (F := Ideal) _ none _ _ _ (ix2 p d) = _
  refine congrArg₂ (· + ·) (congrArg (· * aold (ix2 p d)) ((bcastCol_apply _ _ p d).trans (alpha_apply x0 x1 mold p))) ?_
  refine (matmul_zero_apply _ _ p d).trans (Finset.sum_congr rfl fun q _ => ?_)
  rw [pTile_apply, kv_apply]

/-- The output block: the weighted sums over the denominator. -/
theorem out_apply (acc : Vec Ideal S128x128 .f32) (l : Vec Ideal S128x1 .f32) (p d : Fin 128) :
    k0_pay2 acc l (ix3 (0 : Fin 1) p d) = Ideal.div (acc (ix2 p d)) (l (ix2 p (0 : Fin 1))) := by
  unfold k0_pay2
  rw [shapeCast_ab_1ab_apply]
  show Ideal.div (acc (ix2 p d)) (broadcastTo S128x128 l _ (ix2 p d)) = _
  rw [bcastCol_apply]

/-- The reset values. -/
theorem pay3_apply (i : S128x1.Idx) : k0_pay3 (F := Ideal) i = (⊥ : EReal) := by
  unfold k0_pay3; rw [shapeCast_self]; exact bot_f32
theorem pay4_apply (i : S128x1.Idx) : k0_pay4 (F := Ideal) i = (0 : EReal) := by
  unfold k0_pay4; rw [shapeCast_self]; exact zero_f32
theorem pay5_apply (i : S128x128.Idx) : k0_pay5 (F := Ideal) i = (0 : EReal) := by
  unfold k0_pay5; rw [shapeCast_self]; exact zero_f32

end Cert.KernelIdeal.Tile

end
-- ==== Proof.TileStep.lean ====
/-
  One tile's step on real blocks. When the two loaded blocks hold reals `qb p d` and `vb q d`, the score tile is the real
  matrix `sc p q = ∑_d tanh (qb p d + vb q d)`, and for every query row `p` the update of the three carried buffers is the step
  of the running softmax: from the reset values it gives a state normalised at the tile's totals
  `∑_q exp (sc p q)`, `∑_q exp (sc p q) * vb q d`, and from a state normalised at `L`, `A` one normalised at `L`, `A` plus the
  tile's totals. The stored output block is then `A d / L`.
-/
import proofs.«103159_j77970836292244_2_alg».proof.Proof.Update

set_option maxRecDepth 16384

noncomputable section

open scoped BigOperators
open Idealize.ShloMosaic Idealize.ShloMosaic.ValueIdx

namespace Cert.KernelIdeal.Tile

open Cert.KernelIdeal Cert.KernelIdeal.Gen Cert.KernelIdeal.Score OnlineSoftmax

/-- The block's scores. -/
def sc (qb vb : Fin 128 → Fin 128 → ℝ) (p q : Fin 128) : ℝ := ∑ d : Fin 128, Real.tanh (qb p d + vb q d)

section
variable (x0 x1 : Vec Ideal S1x128x128 .f32) (qb vb : Fin 128 → Fin 128 → ℝ)
  (hx0 : ∀ p d, x0 (ix3 (0 : Fin 1) p d) = ((qb p d : ℝ) : EReal))
  (hx1 : ∀ q d, x1 (ix3 (0 : Fin 1) q d) = ((vb q d : ℝ) : EReal))
include hx0 hx1

/-- On real blocks the score tile is real. -/
theorem eTile_real (p q : Fin 128) : eTile x0 x1 (ix2 p q) = ((sc qb vb p q : ℝ) : EReal) := by
  rw [eTile_apply]
  simp only [q_apply, kT_apply, hx0, hx1]
  exact OnlineSoftmax.sum_tanh_coe _ _

/-- The first point of a run: reset, then one step. -/
theorem step_first (p : Fin 128) :
    Normalised (mNew x0 x1 (k0_pay3 (F := Ideal)) (ix2 p (0 : Fin 1))) (lNew x0 x1 (k0_pay3 (F := Ideal)) (k0_pay4 (F := Ideal)) (ix2 p (0 : Fin 1)))
      (fun d : Fin 128 => accNew x0 x1 (k0_pay3 (F := Ideal)) (k0_pay5 (F := Ideal)) (ix2 p d))
      (∑ q : Fin 128, Real.exp (sc qb vb p q)) (fun d => ∑ q : Fin 128, Real.exp (sc qb vb p q) * vb q d) := by
  refine first_tile (fun q => sc qb vb p q) (fun q d => vb q d) _ _ _ ?_ ?_ ?_
  · rw [mNew_apply, pay3_apply]; simp only [eTile_real x0 x1 qb vb hx0 hx1]
  · rw [lNew_apply, pay3_apply, pay4_apply]; simp only [eTile_real x0 x1 qb vb hx0 hx1]
  · intro d; rw [accNew_apply, pay3_apply, pay5_apply]; simp only [eTile_real x0 x1 qb vb hx0 hx1, hx1]

/-- A later point: one step from what the point before left. -/
theorem step_later (mold lold : Vec Ideal S128x1 .f32) (aold : Vec Ideal S128x128 .f32) (p : Fin 128) (L : ℝ) (A : Fin 128 → ℝ)
    (h : Normalised (mold (ix2 p (0 : Fin 1))) (lold (ix2 p (0 : Fin 1))) (fun d : Fin 128 => aold (ix2 p d)) L A) :
    Normalised (mNew x0 x1 mold (ix2 p (0 : Fin 1))) (lNew x0 x1 mold lold (ix2 p (0 : Fin 1)))
      (fun d : Fin 128 => accNew x0 x1 mold aold (ix2 p d))
      (L + ∑ q : Fin 128, Real.exp (sc qb vb p q)) (fun d => A d + ∑ q : Fin 128, Real.exp (sc qb vb p q) * vb q d) := by
  refine later_tile (fun q => sc qb vb p q) (fun q d => vb q d) _ _ _ L A h _ _ _ ?_ ?_ ?_
  · rw [mNew_apply]; simp only [eTile_real x0 x1 qb vb hx0 hx1]
  · rw [lNew_apply]; simp only [eTile_real x0 x1 qb vb hx0 hx1]
  · intro d; rw [accNew_apply]; simp only [eTile_real x0 x1 qb vb hx0 hx1, hx1]

end

/-- The output block of a normalised state: the quotient of the totals. -/
theorem out_real (acc : Vec Ideal S128x128 .f32) (l : Vec Ideal S128x1 .f32) (mm : EReal) (p d : Fin 128) (L : ℝ) (A : Fin 128 → ℝ)
    (h : Normalised mm (l (ix2 p (0 : Fin 1))) (fun d : Fin 128 => acc (ix2 p d)) L A) (hL : 0 < L) :
    k0_pay2 acc l (ix3 (0 : Fin 1) p d) = ((A d / L : ℝ) : EReal) := by
  rw [out_apply]
  exact OnlineSoftmax.quotient mm _ (fun d : Fin 128 => acc (ix2 p d)) L A h hL d

end Cert.KernelIdeal.Tile

end
-- ==== Proof.Invariant.lean ====
/-
  What the carried buffers hold after every grid point.

  The 64 points are numbered `n = 16 b + 4 i + j`: batch `b`, query block `i` (rows `128 i … 128 i + 127`), key tile `j`
  (rows `128 j … 128 j + 127`); a run is the four consecutive points of one `(b, i)`. For every row `p` of the query block, after
  point `n` the level, the denominator and the weighted sums form a state NORMALISED at the totals accumulated since the
  run's first point: `accL n p` is the sum of the tiles' weights `∑_q exp (score)` over the run's tiles up to `j`, `accA n p d`
  the same with each weight multiplied by the value `V q d`. The proof is an induction on the point: a run's first point
  resets and steps, every other point steps from what the point before left.
-/
import proofs.«103159_j77970836292244_2_alg».proof.Proof.TileStep
import proofs.«103159_j77970836292244_2_alg».proof.Proof.Gen.KernelIdeal.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Inv

open Cert.KernelIdeal Cert.KernelIdeal.Gen Cert.KernelIdeal.Score Cert.KernelIdeal.Tile OnlineSoftmax AddAttn

theorem hN : cfg0.N = 64 := N_0

/-! ## The points' coordinates and blocks -/

/-- The batch of point `n`. -/
def bN (n : ℕ) : Fin 4 := ⟨n / 16 % 4, Nat.mod_lt _ (by decide)⟩
/-- The array row of row `p` of point `n`'s query block. -/
def rN (n : ℕ) (p : Fin 128) : Fin 512 := ⟨128 * (n / 4 % 4) + p.val, by have := p.isLt; omega⟩
/-- The key tile of point `n`. -/
def jN (n : ℕ) : Fin 4 := ⟨n % 4, Nat.mod_lt _ (by decide)⟩

/-- The printed index maps, decided over the grid. -/
theorem idx_q : ∀ t : Fin cfg0.N, win0_0.index t (0 : Fin 3) = t.val / 16 ∧ win0_0.index t (1 : Fin 3) = t.val / 4 % 4
    ∧ win0_0.index t (2 : Fin 3) = 0 :=
  (by decide +kernel : ∀ t : Fin grid0.N, win0_0.index t (0 : Fin 3) = t.val / 16 ∧ win0_0.index t (1 : Fin 3) = t.val / 4 % 4
    ∧ win0_0.index t (2 : Fin 3) = 0)
theorem idx_kv : ∀ t : Fin cfg0.N, win0_1.index t (0 : Fin 3) = t.val / 16 ∧ win0_1.index t (1 : Fin 3) = t.val % 4
    ∧ win0_1.index t (2 : Fin 3) = 0 :=
  (by decide +kernel : ∀ t : Fin grid0.N, win0_1.index t (0 : Fin 3) = t.val / 16 ∧ win0_1.index t (1 : Fin 3) = t.val % 4
    ∧ win0_1.index t (2 : Fin 3) = 0)

variable (m : (ℓ : Loc nD τ sig) → Buf (Elt Ideal) ℓ) (c : Dev nD)

/-- The query block of point `t` reads the first argument at the point's batch and rows. -/
theorem qblk_apply (t : Fin cfg0.N) (p d : Fin 128) :
    (iblk m c 0 t : Vec Ideal S1x128x128 .f32) (ix3 (0 : Fin 1) p d)
      = m ((c : Thread nD τ).loc main_arg0) (ix3 (bN t.val) (rN t.val p) d) := by
  unfold iblk
  rw [View.read_apply]
  show V m c main_arg0 _ = _
  refine congrArg (V m c main_arg0) (funext fun a => Fin.ext ?_)
  obtain ⟨e0, e1, e2⟩ := idx_q t
  have ht : t.val < 64 := lt_of_lt_of_eq t.isLt hN
  match a with
  | ⟨0, _⟩ => show win0_0.index t (0 : Fin 3) * 1 + 1 * 0 = t.val / 16 % 4; omega
  | ⟨1, _⟩ => show win0_0.index t (1 : Fin 3) * 128 + 1 * p.val = 128 * (t.val / 4 % 4) + p.val; omega
  | ⟨2, _⟩ => show win0_0.index t (2 : Fin 3) * 128 + 1 * d.val = d.val; omega

/-- The key/value block of point `t` reads the second argument at the point's batch and key tile. -/
theorem kvblk_apply (t : Fin cfg0.N) (q d : Fin 128) :
    (iblk m c 1 t : Vec Ideal S1x128x128 .f32) (ix3 (0 : Fin 1) q d)
      = m ((c : Thread nD τ).loc main_arg1) (ix3 (bN t.val) (kk (jN t.val) q) d) := by
  unfold iblk
  rw [View.read_apply]
  show V m c main_arg1 _ = _
  refine congrArg (V m c main_arg1) (funext fun a => Fin.ext ?_)
  obtain ⟨e0, e1, e2⟩ := idx_kv t
  have ht : t.val < 64 := lt_of_lt_of_eq t.isLt hN
  match a with
  | ⟨0, _⟩ => show win0_1.index t (0 : Fin 3) * 1 + 1 * 0 = t.val / 16 % 4; omega
  | ⟨1, _⟩ => show win0_1.index t (1 : Fin 3) * 128 + 1 * q.val = 128 * (t.val % 4) + q.val; omega
  | ⟨2, _⟩ => show win0_1.index t (2 : Fin 3) * 128 + 1 * d.val = d.val; omega

/-! ## The totals accumulated along a run -/

variable (qr vr : Fin 4 → Fin 512 → Fin 128 → ℝ)

/-- The real query block of point `n`. -/
def qbN (n : ℕ) (p d : Fin 128) : ℝ := qr (bN n) (rN n p) d
/-- The real key/value block of point `n`. -/
def vbN (n : ℕ) (q d : Fin 128) : ℝ := vr (bN n) (kk (jN n) q) d

/-- Tile `n`'s total weight for row `p`. -/
def TL (n : ℕ) (p : Fin 128) : ℝ := ∑ q : Fin 128, Real.exp (sc (qbN qr n) (vbN vr n) p q)
/-- Tile `n`'s weighted sum of column `d`. -/
def TA (n : ℕ) (p : Fin 128) (d : Fin 128) : ℝ := ∑ q : Fin 128, Real.exp (sc (qbN qr n) (vbN vr n) p q) * vbN vr n q d

/-- The weights accumulated since the run's first point. -/
def accL : ℕ → Fin 128 → ℝ
  | 0, p => TL qr vr 0 p
  | n + 1, p => if (n + 1) % 4 = 0 then TL qr vr (n + 1) p else accL n p + TL qr vr (n + 1) p
/-- The weighted sums accumulated since the run's first point. -/
def accA : ℕ → Fin 128 → Fin 128 → ℝ
  | 0, p => fun d => TA qr vr 0 p d
  | n + 1, p => if (n + 1) % 4 = 0 then fun d => TA qr vr (n + 1) p d else fun d => accA n p d + TA qr vr (n + 1) p d

theorem accL_first (n : ℕ) (h : n % 4 = 0) (p : Fin 128) : accL qr vr n p = TL qr vr n p := by
  cases n with
  | zero => rfl
  | succ n => exact if_pos h
theorem accA_first (n : ℕ) (h : n % 4 = 0) (p : Fin 128) : accA qr vr n p = fun d => TA qr vr n p d := by
  cases n with
  | zero => rfl
  | succ n => exact if_pos h
theorem accL_next (n : ℕ) (h : ¬(n + 1) % 4 = 0) (p : Fin 128) : accL qr vr (n + 1) p = accL qr vr n p + TL qr vr (n + 1) p :=
  if_neg h
theorem accA_next (n : ℕ) (h : ¬(n + 1) % 4 = 0) (p : Fin 128) :
    accA qr vr (n + 1) p = fun d => accA qr vr n p d + TA qr vr (n + 1) p d :=
  if_neg h

/-! ## The invariant -/

section
variable (hq : ∀ (b : Fin 4) (r : Fin 512) (d : Fin 128), m ((c : Thread nD τ).loc main_arg0) (ix3 b r d) = ((qr b r d : ℝ) : EReal))
  (hv : ∀ (b : Fin 4) (r : Fin 512) (d : Fin 128), m ((c : Thread nD τ).loc main_arg1) (ix3 b r d) = ((vr b r d : ℝ) : EReal))
include hq hv

theorem hx0 (t : Fin cfg0.N) (p d : Fin 128) :
    (iblk m c 0 t : Vec Ideal S1x128x128 .f32) (ix3 (0 : Fin 1) p d) = ((qbN qr t.val p d : ℝ) : EReal) := by
  rw [qblk_apply, hq]; rfl
theorem hx1 (t : Fin cfg0.N) (q d : Fin 128) :
    (iblk m c 1 t : Vec Ideal S1x128x128 .f32) (ix3 (0 : Fin 1) q d) = ((vbN vr t.val q d : ℝ) : EReal) := by
  rw [kvblk_apply, hv]; rfl

/-- After point `n` the three carried buffers, at row `p`, are normalised at the run's accumulated totals. -/
theorem carried : ∀ (n : ℕ) (h : n < cfg0.N) (p : Fin 128),
    Normalised ((outsAt0 m c n h).2.1 (ix2 p (0 : Fin 1))) ((outsAt0 m c n h).2.2.1 (ix2 p (0 : Fin 1)))
      (fun d : Fin 128 => (outsAt0 m c n h).2.2.2 (ix2 p d)) (accL qr vr n p) (accA qr vr n p)
  | 0, h, p => by
    rw [outsAt0_A m c ⟨0, h⟩ rfl (by show ¬(0 % 4 = 3); decide)]
    dsimp only
    rw [sout_A_0, sout_A_1, sout_A_2, pay1_eq]
    exact step_first _ _ (qbN qr 0) (vbN vr 0) (hx0 m c qr vr hq hv ⟨0, h⟩) (hx1 m c qr vr hq hv ⟨0, h⟩) p
  | n + 1, h, p => by
    have h64 : n + 1 < 64 := lt_of_lt_of_eq h hN
    by_cases h0 : (n + 1) % 4 = 0
    · have h1 : ¬(n + 1) % 4 = 3 := by omega
      rw [outsAt0_A m c ⟨n + 1, h⟩ h0 h1]
      dsimp only
      rw [sout_A_0, sout_A_1, sout_A_2, pay1_eq, accL_first qr vr (n + 1) h0, accA_first qr vr (n + 1) h0]
      exact step_first _ _ (qbN qr (n + 1)) (vbN vr (n + 1)) (hx0 m c qr vr hq hv ⟨n + 1, h⟩) (hx1 m c qr vr hq hv ⟨n + 1, h⟩) p
    · have ih := carried n (Nat.lt_of_succ_lt h) p
      by_cases h1 : (n + 1) % 4 = 3
      · rw [outsAt0_C m c ⟨n + 1, h⟩ h0 h1]
        dsimp only
        rw [sout_C_0, sout_C_1, sout_C_2, pay1_eq, accL_next qr vr n h0, accA_next qr vr n h0]
        exact step_later _ _ (qbN qr (n + 1)) (vbN vr (n + 1)) (hx0 m c qr vr hq hv ⟨n + 1, h⟩) (hx1 m c qr vr hq hv ⟨n + 1, h⟩)
          _ _ _ p _ _ ih
      · rw [outsAt0_B m c ⟨n + 1, h⟩ h0 h1]
        dsimp only
        rw [sout_B_0, sout_B_1, sout_B_2, pay1_eq, accL_next qr vr n h0, accA_next qr vr n h0]
        exact step_later _ _ (qbN qr (n + 1)) (vbN vr (n + 1)) (hx0 m c qr vr hq hv ⟨n + 1, h⟩) (hx1 m c qr vr hq hv ⟨n + 1, h⟩)
          _ _ _ p _ _ ih

end

end Cert.KernelIdeal.Inv

end
-- ==== Proof.Cover.lean ====
/-
  Every index of the output array lies in the block of a grid point that writes its block back.

  The grid is 4 × 4 × 4 with the last axis fastest, so point `t = 16 b + 4 r + k` has coordinates `(b, r, k)`. The output
  window's block at that point has block index `(b, r, 0)` and block sizes `(1, 128, 128)`: it is batch `b`, rows
  `128 r … 128 r + 127`, all 128 columns. The block is written back exactly at the points with `k = 3`. Hence the index
  `(b, x, y)` lies in the block of the point `16 b + 4 (x / 128) + 3`, which is one of those.
-/
import proofs.«103159_j77970836292244_2_alg».proof.Proof.Gen.KernelIdeal.Frame
import Idealize.ShloMosaic.Lib.Pipeline.Value

set_option maxRecDepth 16384

noncomputable section

open Idealize.ShloMosaic Idealize.ShloMosaic.TcCoe Idealize.SL.Sem
open Cert.KernelIdeal Cert.KernelIdeal.Gen

namespace Cert.KernelIdeal.Cover

/-- The output window's block index at point `t`, axis by axis: the batch `t / 16`, the row block `t / 4 % 4`, and `0`
    along the columns. Checked at each of the 64 points. -/
theorem block_index : ∀ t : Fin cfg0.N, win0_2.index t (0 : Fin 3) = t.val / 16
    ∧ win0_2.index t (1 : Fin 3) = t.val / 4 % 4
    ∧ win0_2.index t (2 : Fin 3) = 0 :=
  (by decide +kernel : ∀ t : Fin grid0.N, _)

/-- An index of the array is in point `t`'s block iff each coordinate is in the block's range on its axis:
    from block index × block size, for block size many places. -/
theorem mem_block (t : Fin cfg0.N) (i : S4x512x128.Idx) :
    i ∈ ((cfg0.win 2).blk t).view.set ↔ ∀ a : Fin 3, win0_2.index t a * S1x128x128.size a ≤ (i a).val
      ∧ (i a).val < win0_2.index t a * S1x128x128.size a + S1x128x128.size a := by
  show i ∈ ((View.whole main_v0).slice (win0_2.rect t)).set ↔ _
  rw [View.set_slice_whole, Rect.mem_set_unit]
  exact Iff.rfl

/-- Every index of the output array is in the block of some point that writes its block back. -/
theorem cover (i : S4x512x128.Idx) : ∃ t : Fin cfg0.N, (cfg0.win 2).flush t = true ∧ i ∈ ((cfg0.win 2).blk t).view.set := by
  have h0 : (i 0).val < 4 := (i 0).isLt
  have h1 : (i 1).val < 512 := (i 1).isLt
  have h2 : (i 2).val < 128 := (i 2).isLt
  have hN : cfg0.N = 64 := N_0
  -- the point: batch `i 0`, row block `i 1 / 128`, last step of the innermost axis
  obtain ⟨t, ht⟩ : ∃ t : Fin cfg0.N, t.val = 16 * (i 0).val + 4 * ((i 1).val / 128) + 3 :=
    ⟨⟨16 * (i 0).val + 4 * ((i 1).val / 128) + 3, by omega⟩, rfl⟩
  refine ⟨t, (flush0_2 t).2 (by omega), ?_⟩
  rw [mem_block]
  obtain ⟨e0, e1, e2⟩ := block_index t
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 128 ≤ (i 1).val ∧ (i 1).val < win0_2.index t (1 : Fin 3) * 128 + 128
    omega
  | ⟨2, _⟩ =>
    show win0_2.index t (2 : Fin 3) * 128 ≤ (i 2).val ∧ (i 2).val < win0_2.index t (2 : Fin 3) * 128 + 128
    omega

end Cert.KernelIdeal.Cover

end
-- ==== Proof.Final.lean ====
/-
  The kernel's result array. At a run's last point the output block `acc / l` is stored and written back; the carried state
  there is normalised at the run's four tiles' totals, so the block's entry at row `p`, column `d` is the quotient of the
  totals, which is the specification `G` at the block's batch, at array row `128 i + p` and at column `d`. The sixteen written
  blocks tile the array, so the array ends holding `G` everywhere.
-/
import proofs.«103159_j77970836292244_2_alg».proof.Proof.Invariant
import proofs.«103159_j77970836292244_2_alg».proof.Proof.Cover

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Score Cert.KernelIdeal.Tile Cert.KernelIdeal.Inv OnlineSoftmax AddAttn

variable (qr vr : Fin 4 → Fin 512 → Fin 128 → ℝ)

/-! ## A run's totals are the specification's -/

theorem TL_eq (n : ℕ) (p : Fin 128) (b : Fin 4) (R : Fin 512) (j : Fin 4) (hb : bN n = b) (hr : rN n p = R) (hj : jN n = j) :
    TL qr vr n p = tileL qr vr b R j := by
  subst hb hr hj; rfl
theorem TA_eq (n : ℕ) (p d : Fin 128) (b : Fin 4) (R : Fin 512) (j : Fin 4) (hb : bN n = b) (hr : rN n p = R) (hj : jN n = j) :
    TA qr vr n p d = tileA qr vr b R j d := by
  subst hb hr hj; rfl

/-- After a run's last point the accumulated weights are the four tiles' weights, first to last. -/
theorem accL_last (n : ℕ) (hn : n % 4 = 0) (p : Fin 128) :
    accL qr vr (n + 3) p = tileL qr vr (bN (n + 3)) (rN (n + 3) p) 0 + tileL qr vr (bN (n + 3)) (rN (n + 3) p) 1
      + tileL qr vr (bN (n + 3)) (rN (n + 3) p) 2 + tileL qr vr (bN (n + 3)) (rN (n + 3) p) 3 := by
  rw [accL_next qr vr (n + 2) (by omega), accL_next qr vr (n + 1) (by omega), accL_next qr vr n (by omega), accL_first qr vr n hn]
  rw [TL_eq qr vr n p (bN (n + 3)) (rN (n + 3) p) 0 (Fin.ext (by show n / 16 % 4 = (n + 3) / 16 % 4; omega))
      (Fin.ext (by show 128 * (n / 4 % 4) + p.val = 128 * ((n + 3) / 4 % 4) + p.val; omega)) (Fin.ext (by show n % 4 = 0; omega)),
    TL_eq qr vr (n + 1) p (bN (n + 3)) (rN (n + 3) p) 1 (Fin.ext (by show (n + 1) / 16 % 4 = (n + 3) / 16 % 4; omega))
      (Fin.ext (by show 128 * ((n + 1) / 4 % 4) + p.val = 128 * ((n + 3) / 4 % 4) + p.val; omega)) (Fin.ext (by show (n + 1) % 4 = 1; omega)),
    TL_eq qr vr (n + 2) p (bN (n + 3)) (rN (n + 3) p) 2 (Fin.ext (by show (n + 2) / 16 % 4 = (n + 3) / 16 % 4; omega))
      (Fin.ext (by show 128 * ((n + 2) / 4 % 4) + p.val = 128 * ((n + 3) / 4 % 4) + p.val; omega)) (Fin.ext (by show (n + 2) % 4 = 2; omega)),
    TL_eq qr vr (n + 3) p (bN (n + 3)) (rN (n + 3) p) 3 rfl rfl (Fin.ext (by show (n + 3) % 4 = 3; omega))]

/-- … and the accumulated weighted sums the four tiles' weighted sums. -/
theorem accA_last (n : ℕ) (hn : n % 4 = 0) (p d : Fin 128) :
    accA qr vr (n + 3) p d = tileA qr vr (bN (n + 3)) (rN (n + 3) p) 0 d + tileA qr vr (bN (n + 3)) (rN (n + 3) p) 1 d
      + tileA qr vr (bN (n + 3)) (rN (n + 3) p) 2 d + tileA qr vr (bN (n + 3)) (rN (n + 3) p) 3 d := by
  rw [accA_next qr vr (n + 2) (by omega)]
  dsimp only
  rw [accA_next qr vr (n + 1) (by omega)]
  dsimp only
  rw [accA_next qr vr n (by omega)]
  dsimp only
  rw [accA_first qr vr n hn]
  dsimp only
  rw [TA_eq qr vr n p d (bN (n + 3)) (rN (n + 3) p) 0 (Fin.ext (by show n / 16 % 4 = (n + 3) / 16 % 4; omega))
      (Fin.ext (by show 128 * (n / 4 % 4) + p.val = 128 * ((n + 3) / 4 % 4) + p.val; omega)) (Fin.ext (by show n % 4 = 0; omega)),
    TA_eq qr vr (n + 1) p d (bN (n + 3)) (rN (n + 3) p) 1 (Fin.ext (by show (n + 1) / 16 % 4 = (n + 3) / 16 % 4; omega))
      (Fin.ext (by show 128 * ((n + 1) / 4 % 4) + p.val = 128 * ((n + 3) / 4 % 4) + p.val; omega)) (Fin.ext (by show (n + 1) % 4 = 1; omega)),
    TA_eq qr vr (n + 2) p d (bN (n + 3)) (rN (n + 3) p) 2 (Fin.ext (by show (n + 2) / 16 % 4 = (n + 3) / 16 % 4; omega))
      (Fin.ext (by show 128 * ((n + 2) / 4 % 4) + p.val = 128 * ((n + 3) / 4 % 4) + p.val; omega)) (Fin.ext (by show (n + 2) % 4 = 2; omega)),
    TA_eq qr vr (n + 3) p d (bN (n + 3)) (rN (n + 3) p) 3 rfl rfl (Fin.ext (by show (n + 3) % 4 = 3; omega))]

/-- So at a run's last point the quotient of the accumulated totals is the specification. -/
theorem quot_last (t : ℕ) (ht : t % 4 = 3) (p d : Fin 128) :
    accA qr vr t p d / accL qr vr t p = G qr vr (bN t) (rN t p) d ∧ 0 < accL qr vr t p := by
  obtain ⟨n, rfl⟩ : ∃ n, t = n + 3 := ⟨t - 3, by omega⟩
  have hn : n % 4 = 0 := by omega
  rw [accL_last qr vr n hn p, accA_last qr vr n hn p d]
  refine ⟨rfl, ?_⟩
  have h0 := tileL_pos qr vr (bN (n + 3)) (rN (n + 3) p) 0
  have h1 := tileL_pos qr vr (bN (n + 3)) (rN (n + 3) p) 1
  have h2 := tileL_pos qr vr (bN (n + 3)) (rN (n + 3) p) 2
  have h3 := tileL_pos qr vr (bN (n + 3)) (rN (n + 3) p) 3
  linarith

/-! ## The written blocks and the array -/

variable (m : (ℓ : Loc nD τ sig) → Buf (Elt Ideal) ℓ) (ρ : Dev nD → PrngReg)

/-- The specification as contents of the result array. -/
def result (c : Dev nD) : Buf (Elt Ideal) ((c : Thread nD τ).loc main_v0) :=
  fun (i : S4x512x128.Idx) => ((G qr vr ⟨(i 0).val, (i 0).isLt⟩ ⟨(i 1).val, (i 1).isLt⟩ ⟨(i 2).val, (i 2).isLt⟩ : ℝ) : EReal)

/-- The output window's printed index map, decided over the grid. -/
theorem idx_o : ∀ t : Fin cfg0.N, win0_2.index t (0 : Fin 3) = t.val / 16 ∧ win0_2.index t (1 : Fin 3) = t.val / 4 % 4
    ∧ win0_2.index t (2 : Fin 3) = 0 :=
  (by decide +kernel : ∀ t : Fin grid0.N, win0_2.index t (0 : Fin 3) = t.val / 16 ∧ win0_2.index t (1 : Fin 3) = t.val / 4 % 4
    ∧ win0_2.index t (2 : Fin 3) = 0)

section
variable (c : Dev nD)
  (hq : ∀ (b : Fin 4) (r : Fin 512) (d : Fin 128), m ((c : Thread nD τ).loc main_arg0) (ix3 b r d) = ((qr b r d : ℝ) : EReal))
  (hv : ∀ (b : Fin 4) (r : Fin 512) (d : Fin 128), m ((c : Thread nD τ).loc main_arg1) (ix3 b r d) = ((vr b r d : ℝ) : EReal))
include hq hv

/-- What a run's last point writes back is its block of the specification. -/
theorem flushed_eq (t : Fin cfg0.N) (hf : (cfg0.win 2).flush t = true) :
    (dats m 0 c).flushed 2 t = ((cfg0.win 2).blk t).view.read (Elt Ideal) (result qr vr c) := by
  have h1 : t.val % 4 = 3 := (flush0_2 t).mp hf
  have h0 : ¬t.val % 4 = 0 := by omega
  have ht : t.val < 64 := lt_of_lt_of_eq t.isLt hN
  rw [Value.flushed2_C m c t h0 h1, out_C_2]
  funext (j : S1x128x128.Idx)
  obtain ⟨u, p, d, rfl⟩ : ∃ (u : Fin 1) (p d : Fin 128), j = ix3 u p d := ⟨j 0, j 1, j 2, eq_ix3 j⟩
  obtain rfl : u = 0 := Subsingleton.elim _ _
  have hS := carried m c qr vr hq hv t.val t.isLt p
  rw [outsAt0_C m c t h0 h1] at hS
  dsimp only at hS
  rw [sout_C_0, sout_C_1, sout_C_2, pay1_eq] at hS
  obtain ⟨hG, hL⟩ := quot_last qr vr t.val h1 p d
  show k0_pay2 (F := Ideal) (accNew (F := Ideal) _ _ _ _) (lNew (F := Ideal) _ _ _ _) (ix3 (0 : Fin 1) p d) = result qr vr c (((cfg0.win 2).blk t).view.emb (ix3 (0 : Fin 1) p d))
  rw [out_real _ _ _ p d _ _ hS hL, hG]
  obtain ⟨e0, e1, e2⟩ := idx_o t
  show _ = ((G qr vr _ _ _ : ℝ) : EReal)
  congr 2
  · exact Fin.ext (by show t.val / 16 % 4 = win0_2.index t (0 : Fin 3) * 1 + 1 * 0; omega)
  · exact Fin.ext (by show 128 * (t.val / 4 % 4) + p.val = win0_2.index t (1 : Fin 3) * 128 + 1 * p.val; omega)
  · exact Fin.ext (by show d.val = win0_2.index t (2 : Fin 3) * 128 + 1 * d.val; omega)

/-- The result array ends holding the specification. -/
theorem final : (dats m 0 c).arrAt 2 cfg0.N = result qr vr c :=
  (dats m 0 c).arrAt_eq_of_cover 2 (result qr vr c) (flushed_eq qr vr m c hq hv) (fun i => Cover.cover i)

end

/-- The kernel's run, read: the result array at the specification, the arguments unchanged. -/
theorem run (qrs vrs : Dev nD → Fin 4 → Fin 512 → Fin 128 → ℝ)
    (hq : ∀ (c : Dev nD) (b : Fin 4) (r : Fin 512) (d : Fin 128), m ((c : Thread nD τ).loc main_arg0) (ix3 b r d) = ((qrs c b r d : ℝ) : EReal))
    (hv : ∀ (c : Dev nD) (b : Fin 4) (r : Fin 512) (d : Fin 128), m ((c : Thread nD τ).loc main_arg1) (ix3 b r d) = ((vrs c b r d : ℝ) : EReal)) :
    θ_run defs (onTc (τ := τ) (main (F := Ideal))) ⟨m, fun _ => 0, ρ⟩ fun r => ∀ c : Dev nD,
      r.2.mem ((c : Thread nD τ).loc main_v0) = result (qrs c) (vrs c) c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final (qrs c) (vrs c) m c (hq c) (hv c)), (h c).2⟩)
    (Value.run_blocks m ρ)

end Cert.KernelIdeal.Final

end
-- ==== Proof.RefSide.lean ====
/-
  The reference is the specification. Its result at `(b, r, d)` is
  `∑_k (exp (s k - M) / (0 + ∑_k' exp (s k' - M))) * v b k d` with `s k = 0 + ∑_d' tanh (q b r d' + v b k d')` the row's scores and
  `M = max (-∞, max_k s k)`, a real because the scores are real and there are 512 of them; by `OnlineSoftmax.softmax_row`
  that is `(∑_k exp (s k) * v b k d) / ∑_k exp (s k)`, and the sums over the 512 key rows are the four tiles' totals.
-/
import proofs.«103159_j77970836292244_2_alg».proof.Proof.Spec
import proofs.«103159_j77970836292244_2_alg».proof.Proof.Gen.ReferenceIdeal.Read
import Idealize.ShloMosaic.Lib.ValueIdx
import Idealize.ShloMosaic.PureOps.Ideal.Laws
import Idealize.ShloMosaic.PureOps.Reduce

noncomputable section

open scoped BigOperators
open Idealize.ShloMosaic Idealize.ShloMosaic.ValueIdx

namespace Cert.ReferenceIdeal.RefValue

open Cert.ReferenceIdeal Cert.ReferenceIdeal.Gen Cert.ReferenceIdeal.Read

/-! ## The composed index maps at coordinates -/

theorem idx_q (b : Fin 4) (r k : Fin 512) (d : Fin 128) :
    idx_main_v0 (idx_main_v2 (ix4 b r k d)) = ix3 b r d :=
  funext fun a => Fin.ext (by match a with | ⟨0, _⟩ => rfl | ⟨1, _⟩ => rfl | ⟨2, _⟩ => rfl)

theorem idx_v (b : Fin 4) (r k : Fin 512) (d : Fin 128) :
    idx_main_v1 (idx_main_v3 (ix4 b r k d)) = ix3 b k d :=
  funext fun a => Fin.ext (by match a with | ⟨0, _⟩ => rfl | ⟨1, _⟩ => rfl | ⟨2, _⟩ => rfl)

theorem idx_score (b : Fin 4) (r k : Fin 512) (d : Fin 128) :
    idx_main_v6 (ix3 b r k) d = ix4 b r k d :=
  funext fun a => Fin.ext (by match a with | ⟨0, _⟩ => rfl | ⟨1, _⟩ => rfl | ⟨2, _⟩ => rfl | ⟨3, _⟩ => rfl)

theorem idx_max (b : Fin 4) (r k : Fin 512) :
    idx_main_v10 (idx_main_v11 (ix3 b r k)) = ix2 b r :=
  funext fun a => Fin.ext (by match a with | ⟨0, _⟩ => rfl | ⟨1, _⟩ => rfl)

theorem idx_den (b : Fin 4) (r k : Fin 512) :
    idx_main_v15 (idx_main_v16 (ix3 b r k)) = ix2 b r :=
  funext fun a => Fin.ext (by match a with | ⟨0, _⟩ => rfl | ⟨1, _⟩ => rfl)

theorem idx_row (b : Fin 4) (r k : Fin 512) :
    idx_main_v14 (ix2 b r) k = ix3 b r k :=
  funext fun a => Fin.ext (by match a with | ⟨0, _⟩ => rfl | ⟨1, _⟩ => rfl | ⟨2, _⟩ => rfl)

theorem idx_lhs (b : Fin 4) (r k : Fin 512) (d : Fin 128) :
    lidx_main_v18 (ix3 b r d) k = ix3 b r k :=
  funext fun a => Fin.ext (by match a with | ⟨0, _⟩ => rfl | ⟨1, _⟩ => rfl | ⟨2, _⟩ => rfl)

theorem idx_rhs (b : Fin 4) (r k : Fin 512) (d : Fin 128) :
    ridx_main_v18 (ix3 b r d) k = ix3 b k d :=
  funext fun a => Fin.ext (by match a with | ⟨0, _⟩ => rfl | ⟨1, _⟩ => rfl | ⟨2, _⟩ => rfl)

/-! ## The scores -/

/-- The score stage at `(b, r, k)` is the specification's score. -/
theorem score_at (x0 x1 : (⟨S4x512x128, .f32⟩ : BufTy).Contents (Elt Ideal)) (qr vr : Fin 4 → Fin 512 → Fin 128 → ℝ)
    (hq : ∀ (b : Fin 4) (r : Fin 512) (d : Fin 128), x0 (ix3 b r d) = ((qr b r d : ℝ) : EReal))
    (hv : ∀ (b : Fin 4) (r : Fin 512) (d : Fin 128), x1 (ix3 b r d) = ((vr b r d : ℝ) : EReal))
    (b : Fin 4) (r k : Fin 512) :
    val_main_v6 (F := Ideal) x0 x1 (ix3 b r k) = ((AddAttn.score qr vr b r k : ℝ) : EReal) := by
  rw [val_main_v6_apply, val_main_cst_apply]
  have e : ∀ d : Fin 128, val_main_v5 (F := Ideal) x0 x1 (idx_main_v6 (ix3 b r k) d)
      = Ideal.tanh (((qr b r d : ℝ) : EReal) + ((vr b k d : ℝ) : EReal)) := by
    intro d
    rw [idx_score, val_main_v5_apply, val_main_v4_apply, val_main_v2_apply, val_main_v0_apply, val_main_v3_apply,
      val_main_v1_apply, idx_q, idx_v, hq, hv]
    rfl
  rw [Finset.sum_congr rfl (fun d _ => e d), OnlineSoftmax.sum_tanh_coe]
  simp only [Ideal.ofBits_def, Ideal.ofBits_zero_f32, zero_add]
  rfl

/-! ## The level -/

/-- The word of the initial value of the maximum is `-∞`. -/
theorem ofBits_neg_inf : Ideal.ofBits .f32 0xFF800000#32 = (⊥ : EReal) := by simp [Ideal.ofBits, Ideal.ieee]

/-- The level the row is shifted by, `max (-∞) (max over the 512 scores from -∞)`, is some real. -/
theorem max_at (x0 x1 : (⟨S4x512x128, .f32⟩ : BufTy).Contents (Elt Ideal)) (qr vr : Fin 4 → Fin 512 → Fin 128 → ℝ)
    (hq : ∀ (b : Fin 4) (r : Fin 512) (d : Fin 128), x0 (ix3 b r d) = ((qr b r d : ℝ) : EReal))
    (hv : ∀ (b : Fin 4) (r : Fin 512) (d : Fin 128), x1 (ix3 b r d) = ((vr b r d : ℝ) : EReal))
    (b : Fin 4) (r : Fin 512) :
    ∃ M : ℝ, val_main_v9 (F := Ideal) x0 x1 (ix2 b r) = (M : EReal) := by
  have hred : S4x512x512.Reduces [2] S4x512 := by decide
  have hlift : ∀ k : Fin (S4x512x512.size 2), hred.lift (ix2 b r) k = ix3 b r (⟨k.val, k.isLt⟩ : Fin 512) := by
    intro k; funext c; apply Fin.ext
    fin_cases c <;> rfl
  obtain ⟨M, hM⟩ := OnlineSoftmax.fold_max_real (K := Fin 512) (fun k => AddAttn.score qr vr b r k)
  refine ⟨M, ?_⟩
  rw [val_main_v9_apply, val_main_v8_apply, val_main_cst_1_apply]
  unfold val_main_v7
  rw [Host.reduce_eq_fold_single FloatOps.maximumf _ _ reducesTo_S4x512x512_S4x512_d2 hred h_S_, val_main_cst_0_apply]
  have hf : (val_main_v6 (F := Ideal) x0 x1 ∘ hred.lift (ix2 b r))
      = fun k : Fin 512 => ((AddAttn.score qr vr b r k : ℝ) : EReal) :=
    funext fun k => by
      rw [Function.comp_apply, hlift]
      exact score_at x0 x1 qr vr hq hv b r _
  simp only [Ideal.ofBits_def, Ideal.maximumf_def, ofBits_neg_inf]
  have e : Finset.fold max (⊥ : EReal) (val_main_v6 (F := Ideal) x0 x1 ∘ hred.lift (ix2 b r)) (Finset.univ : Finset (Fin 512)) = (M : EReal) :=
    (congrArg (fun f => Finset.fold max (⊥ : EReal) f (Finset.univ : Finset (Fin 512))) hf).trans hM
  exact (max_eq_right bot_le).trans e

/-! ## The shifted exponentials and their sum -/

/-- The exponential stage at `(b, r, k)`, the level being the real `M`. -/
theorem exp_at (x0 x1 : (⟨S4x512x128, .f32⟩ : BufTy).Contents (Elt Ideal)) (qr vr : Fin 4 → Fin 512 → Fin 128 → ℝ)
    (hq : ∀ (b : Fin 4) (r : Fin 512) (d : Fin 128), x0 (ix3 b r d) = ((qr b r d : ℝ) : EReal))
    (hv : ∀ (b : Fin 4) (r : Fin 512) (d : Fin 128), x1 (ix3 b r d) = ((vr b r d : ℝ) : EReal))
    (b : Fin 4) (r : Fin 512) (M : ℝ) (hM : val_main_v9 (F := Ideal) x0 x1 (ix2 b r) = (M : EReal)) (k : Fin 512) :
    val_main_v13 (F := Ideal) x0 x1 (ix3 b r k)
      = Ideal.exp (((AddAttn.score qr vr b r k : ℝ) : EReal) - (M : EReal)) := by
  rw [val_main_v13_apply, val_main_v12_apply, val_main_v11_apply, val_main_v10_apply, idx_max, hM,
    score_at x0 x1 qr vr hq hv]
  rfl

/-- The denominator at `(b, r)`: zero plus the sum of the row's shifted exponentials. -/
theorem den_at (x0 x1 : (⟨S4x512x128, .f32⟩ : BufTy).Contents (Elt Ideal)) (qr vr : Fin 4 → Fin 512 → Fin 128 → ℝ)
    (hq : ∀ (b : Fin 4) (r : Fin 512) (d : Fin 128), x0 (ix3 b r d) = ((qr b r d : ℝ) : EReal))
    (hv : ∀ (b : Fin 4) (r : Fin 512) (d : Fin 128), x1 (ix3 b r d) = ((vr b r d : ℝ) : EReal))
    (b : Fin 4) (r : Fin 512) (M : ℝ) (hM : val_main_v9 (F := Ideal) x0 x1 (ix2 b r) = (M : EReal)) :
    val_main_v14 (F := Ideal) x0 x1 (ix2 b r)
      = 0 + ∑ k : Fin 512, Ideal.exp (((AddAttn.score qr vr b r k : ℝ) : EReal) - (M : EReal)) := by
  rw [val_main_v14_apply, val_main_cst_2_apply]
  simp only [Ideal.ofBits_def, Ideal.ofBits_zero_f32]
  refine congrArg (0 + ·) (Finset.sum_congr rfl fun k _ => ?_)
  rw [idx_row]
  exact exp_at x0 x1 qr vr hq hv b r M hM k

/-! ## The result -/

/-- On arrays of reals the reference's result is the specification, index by index. -/
theorem ref_eq (x0 x1 : (⟨S4x512x128, .f32⟩ : BufTy).Contents (Elt Ideal)) (qr vr : Fin 4 → Fin 512 → Fin 128 → ℝ)
    (hq : ∀ (b : Fin 4) (r : Fin 512) (d : Fin 128), x0 (ix3 b r d) = ((qr b r d : ℝ) : EReal))
    (hv : ∀ (b : Fin 4) (r : Fin 512) (d : Fin 128), x1 (ix3 b r d) = ((vr b r d : ℝ) : EReal))
    (b : Fin 4) (r : Fin 512) (d : Fin 128) :
    val_main_v18 (F := Ideal) x0 x1 (ix3 b r d) = ((AddAttn.G qr vr b r d : ℝ) : EReal) := by
  obtain ⟨M, hM⟩ := max_at x0 x1 qr vr hq hv b r
  rw [val_main_v18_apply]
  have e : ∀ k : Fin 512,
      val_main_v17 (F := Ideal) x0 x1 (lidx_main_v18 (ix3 b r d) k) * x1 (ridx_main_v18 (ix3 b r d) k)
        = Ideal.div (Ideal.exp (((AddAttn.score qr vr b r k : ℝ) : EReal) - (M : EReal)))
            (0 + ∑ k' : Fin 512, Ideal.exp (((AddAttn.score qr vr b r k' : ℝ) : EReal) - (M : EReal)))
          * ((vr b k d : ℝ) : EReal) := by
    intro k
    rw [idx_lhs, idx_rhs, val_main_v17_apply, val_main_v16_apply, val_main_v15_apply, idx_den,
      den_at x0 x1 qr vr hq hv b r M hM, exp_at x0 x1 qr vr hq hv b r M hM, hv]
    rfl
  rw [Finset.sum_congr rfl (fun k _ => e k),
    OnlineSoftmax.softmax_row (fun k => AddAttn.score qr vr b r k) (fun k => vr b k d) M]
  rw [EReal.coe_eq_coe_iff, AddAttn.sum_tiles (fun k => Real.exp (AddAttn.score qr vr b r k) * vr b k d),
    AddAttn.sum_tiles (fun k => Real.exp (AddAttn.score qr vr b r k))]
  rfl

end Cert.ReferenceIdeal.RefValue

end
-- ==== Proof.Finite.lean ====
/-
  The precondition read back: every entry of the two argument arrays is a real number. The predicate is
  `all (|x| < +∞) ∧ all (|v| < +∞)`; an "and"-reduction that is 1 had a 1 at every index, and `|x| < +∞` on the extended
  reals leaves only the reals (`+∞` fails it directly, `-∞` through `|-∞| = +∞`).
-/
import proofs.«103159_j77970836292244_2_alg».proof.Proof.Spec
import proofs.«103159_j77970836292244_2_alg».proof.Pre_finite_inputs
import Idealize.ShloMosaic.Lib.ReduceAll
import Idealize.ShloMosaic.Lib.ValueIdx
import Idealize.ShloMosaic.PureOps.Ideal.Laws

noncomputable section

open Idealize.ShloMosaic Idealize.ShloMosaic.ValueIdx

namespace Cert.Pre_finite_inputs.Finite

open Cert.Pre_finite_inputs

/-- The word the absolute values are compared with is `+∞`. -/
theorem ofBits_pos_inf : Ideal.ofBits .f32 0x7F800000#32 = (⊤ : EReal) := by simp [Ideal.ofBits, Ideal.ieee]

/-- An extended real whose absolute value `max x (-x)` is below `+∞` is a real: `+∞` fails directly, `-∞` because
    `-(-∞) = +∞`. -/
theorem real_of_abs_lt (x : EReal)
    (h : Ideal.cmp .olt (max x (-x)) (Ideal.ofBits .f32 0x7F800000#32) = 1#1) : ∃ r : ℝ, x = (r : EReal) := by
  rw [ofBits_pos_inf] at h
  have hlt : max x (-x) < ⊤ := by
    by_contra hn
    simp [Ideal.cmp, hn] at h
  induction x using EReal.rec with
  | bot => simp at hlt
  | top => simp at hlt
  | coe r => exact ⟨r, rfl⟩

/-- Every entry of an array whose `all (|x| < +∞)` is 1 is a real: the "and" over all three axes that is 1 had a 1 at
    every index. -/
theorem real_of_all [Cert.Pre_finite_inputs.Facts] (x : FVec Ideal S4x512x128 .f32)
    (h : Host.reduce IntOp.andi
        (cmpf .olt (Host.absf x) (broadcastInDim S4x512x128 ![] Facts.bcast_S_S4x512x128 (constant S_ .f32 0x7F800000#32)))
        (constantI S_ 1 1#1) Facts.reducesTo_S4x512x128_S_d0_1_2 Facts.h_S_ ix0 = 1#1)
    (i : S4x512x128.Idx) : ∃ r : ℝ, x i = (r : EReal) := by
  haveI : Subsingleton S_.Idx := ⟨fun a b => funext fun d => d.elim0⟩
  have e := Host.reduce_andi_all _ _ _ _ _ h i
  exact real_of_abs_lt (x i) e

/-- Under the precondition every entry of both arrays is (the coercion of) a real. -/
theorem real_of_pre [Cert.Pre_finite_inputs.Facts] (x0 x1 : FVec Ideal S4x512x128 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ix0
  dsimp only [Cert.Pre_finite_inputs.fn] at h0
  obtain ⟨ha, hb⟩ := IntOp.andi_eq_one.1 h0
  exact ⟨fun i => real_of_all x0 ha i, fun i => real_of_all x1 hb i⟩

end Cert.Pre_finite_inputs.Finite

end
-- ==== Proof.lean ====
/-
  Additive attention by a running softmax, against the softmax taken in one go.

  The kernel meets each query block's 512 key rows in four tiles of 128, carrying a level `m`, a denominator `l` and the
  weighted sums `acc`, rescaling all three whenever the level moves, and stores `acc / l` after the last tile. The reference
  forms all scores, subtracts the row maximum, exponentiates, divides by the row sum and multiplies by the values. Over the
  extended reals both are `(∑_k exp (s k) * v k) / ∑_k exp (s k)` with `s k = ∑_d tanh (q d + v k d)`, PROVIDED every entry of the
  two arrays is real: then every score is real, every level is real, and the level cancels from the quotient (with an
  infinite entry the rescaling `exp (m_old - m_new)` and the division would meet `∞ - ∞` or `∞ / ∞`). The precondition says
  exactly that every entry is real.

  The frames of the two kernel programs are the generated ones; the reference's frame is its run with the result dropped;
  the ideal pass rewrote nothing, so the idealization claim is `True`.
-/
import proofs.«103159_j77970836292244_2_alg».proof.Defs
import proofs.«103159_j77970836292244_2_alg».proof.Proof.Gen.Kernel
import proofs.«103159_j77970836292244_2_alg».proof.Proof.Gen.Kernel.Skeleton
import proofs.«103159_j77970836292244_2_alg».proof.Proof.Gen.Kernel.Launch
import proofs.«103159_j77970836292244_2_alg».proof.Proof.Gen.Kernel.Points
import proofs.«103159_j77970836292244_2_alg».proof.Proof.Gen.Kernel.Frame
import proofs.«103159_j77970836292244_2_alg».proof.Proof.Gen.KernelIdeal
import proofs.«103159_j77970836292244_2_alg».proof.Proof.Gen.KernelIdeal.Skeleton
import proofs.«103159_j77970836292244_2_alg».proof.Proof.Gen.KernelIdeal.Launch
import proofs.«103159_j77970836292244_2_alg».proof.Proof.Gen.KernelIdeal.Points
import proofs.«103159_j77970836292244_2_alg».proof.Proof.Gen.KernelIdeal.Frame
import proofs.«103159_j77970836292244_2_alg».proof.Proof.Gen.ReferenceIdeal
import proofs.«103159_j77970836292244_2_alg».proof.Proof.Gen.Pre_finite_inputs
import proofs.«103159_j77970836292244_2_alg».proof.Proof.Gen.KernelIdeal.Value
import proofs.«103159_j77970836292244_2_alg».proof.Proof.Gen.ReferenceIdeal.Run
import proofs.«103159_j77970836292244_2_alg».proof.Proof.Gen.ReferenceIdeal.Read
import proofs.«103159_j77970836292244_2_alg».proof.Proof.Final
import proofs.«103159_j77970836292244_2_alg».proof.Proof.RefSide
import proofs.«103159_j77970836292244_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the specification of the (real) argument arrays. -/
theorem algebraic : Cert.algebraic_KernelIdeal_ReferenceIdeal := by
  intro m ρ m' ρ' hpre hagree
  -- every entry of both arrays is real: name the reals
  have hfin := fun c : Dev Cert.KernelIdeal.nD => Cert.Pre_finite_inputs.Finite.real_of_pre _ _ (hpre c)
  let qrs : Dev Cert.KernelIdeal.nD → Fin 4 → Fin 512 → Fin 128 → ℝ := fun c b r d =>
    (m ((c.tc : Thread Cert.KernelIdeal.nD Cert.KernelIdeal.τ).loc Cert.KernelIdeal.main_arg0) (ix3 b r d)).toReal
  let vrs : Dev Cert.KernelIdeal.nD → Fin 4 → Fin 512 → Fin 128 → ℝ := fun c b r d =>
    (m ((c.tc : Thread Cert.KernelIdeal.nD Cert.KernelIdeal.τ).loc Cert.KernelIdeal.main_arg1) (ix3 b r d)).toReal
  have hq : ∀ (c : Dev Cert.KernelIdeal.nD) (b : Fin 4) (r : Fin 512) (d : Fin 128),
      m ((c.tc : Thread Cert.KernelIdeal.nD Cert.KernelIdeal.τ).loc Cert.KernelIdeal.main_arg0) (ix3 b r d) = ((qrs c b r d : ℝ) : EReal) := by
    intro c b r d
    obtain ⟨x, hx⟩ := (hfin c).1 (ix3 b r d)
    show m ((c.tc : Thread Cert.KernelIdeal.nD Cert.KernelIdeal.τ).loc Cert.KernelIdeal.main_arg0) (ix3 b r d) = (((m ((c.tc : Thread Cert.KernelIdeal.nD Cert.KernelIdeal.τ).loc Cert.KernelIdeal.main_arg0) (ix3 b r d)).toReal : ℝ) : EReal)
    rw [hx, EReal.toReal_coe]
  have hv : ∀ (c : Dev Cert.KernelIdeal.nD) (b : Fin 4) (r : Fin 512) (d : Fin 128),
      m ((c.tc : Thread Cert.KernelIdeal.nD Cert.KernelIdeal.τ).loc Cert.KernelIdeal.main_arg1) (ix3 b r d) = ((vrs c b r d : ℝ) : EReal) := by
    intro c b r d
    obtain ⟨x, hx⟩ := (hfin c).2 (ix3 b r d)
    show m ((c.tc : Thread Cert.KernelIdeal.nD Cert.KernelIdeal.τ).loc Cert.KernelIdeal.main_arg1) (ix3 b r d) = (((m ((c.tc : Thread Cert.KernelIdeal.nD Cert.KernelIdeal.τ).loc Cert.KernelIdeal.main_arg1) (ix3 b r d)).toReal : ℝ) : EReal)
    rw [hx, EReal.toReal_coe]
  refine ⟨fun c => Cert.KernelIdeal.Final.result (qrs c) (vrs c) c, Cert.KernelIdeal.Final.run m ρ qrs vrs hq hv, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2]
  funext i
  obtain ⟨b, r, d, rfl⟩ : ∃ (b : Fin 4) (r : Fin 512) (d : Fin 128), i = ix3 b r d := ⟨i 0, i 1, i 2, eq_ix3 i⟩
  exact Cert.ReferenceIdeal.RefValue.ref_eq _ _ (qrs c) (vrs c) (hq c) (hv c) b r d

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
